-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x512 : Shape := ⟨2, ![4096, 512]⟩
abbrev S512x2048 : Shape := ⟨2, ![512, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S4096x512 .f32) (main_arg13 : FVec F S512x2048 .f32) (main_arg14 : FVec F S2048 .f32) (main_v48 : IVec S_ 1) (main_v49 : FVec F S512x2048 .f32) (main_v50 : FVec F S512x2048 .f32) : IVec S_ 1 :=
  let main_v51 : IVec S512x2048 1 := cmpf .olt main_v49 main_v50
  let main_c_19 : IVec S_ 1 := constantI S_ 1 1#1
  let main_v52 : IVec S_ 1 := (fun x v => Host.reduce IntOp.andi x v reducesTo_S512x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S4096x512 .f32 := Host.absf main_arg12
  let main_cst_22 : FVec F S_ .f32 := constant S_ .f32 0x7F800000#32
  let main_v60 : FVec F S4096x512 .f32 := broadcastInDim S4096x512 ![] bcast_S_S4096x512 main_cst_22
  let main_v61 : IVec S4096x512 1 := cmpf .olt main_v59 main_v60
  let main_c_23 : IVec S_ 1 := constantI S_ 1 1#1
  let main_v62 : IVec S_ 1 := (fun x v => Host.reduce IntOp.andi x v reducesTo_S4096x512_S_d0_1 h_S_) main_v61 main_c_23
  let main_v63 : IVec S_ 1 := andi main_v58 main_v62
  let main_v64 : FVec F S512x2048 .f32 := Host.absf main_arg13
  let main_cst_24 : FVec F S_ .f32 := constant S_ .f32 0x7F800000#32
  let main_v65 : FVec F S512x2048 .f32 := broadcastInDim S512x2048 ![] bcast_S_S512x2048 main_cst_24
  let main_v66 : IVec S512x2048 1 := cmpf .olt main_v64 main_v65
  let main_c_25 : IVec S_ 1 := constantI S_ 1 1#1
  let main_v67 : IVec S_ 1 := (fun x v => Host.reduce IntOp.andi x v reducesTo_S512x2048_S_d0_1 h_S_) main_v66 main_c_25
  fn_part4 (F := F) main_arg14 main_v63 main_v67

def fn_part2 {F : FTy → Type} [FloatOps F] (main_arg7 : FVec F S512x2048 .f32) (main_arg8 : FVec F S2048 .f32) (main_arg9 : FVec F S4096x512 .f32) (main_arg10 : FVec F S512x2048 .f32) (main_arg11 : FVec F S2048 .f32) (main_arg12 : FVec F S4096x512 .f32) (main_arg13 : FVec F S512x2048 .f32) (main_arg14 : FVec F S2048 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S4096x512 .f32 := Host.absf main_arg9
  let main_cst_16 : FVec F S_ .f32 := constant S_ .f32 0x7F800000#32
  let main_v45 : FVec F S4096x512 .f32 := broadcastInDim S4096x512 ![] bcast_S_S4096x512 main_cst_16
  let main_v46 : IVec S4096x512 1 := cmpf .olt main_v44 main_v45
  let main_c_17 : IVec S_ 1 := constantI S_ 1 1#1
  let main_v47 : IVec S_ 1 := (fun x v => Host.reduce IntOp.andi x v reducesTo_S4096x512_S_d0_1 h_S_) main_v46 main_c_17
  let main_v48 : IVec S_ 1 := andi main_v43 main_v47
  let main_v49 : FVec F S512x2048 .f32 := Host.absf main_arg10
  let main_cst_18 : FVec F S_ .f32 := constant S_ .f32 0x7F800000#32
  let main_v50 : FVec F S512x2048 .f32 := broadcastInDim S512x2048 ![] bcast_S_S512x2048 main_cst_18
  fn_part3 (F := F) main_arg11 main_arg12 main_arg13 main_arg14 main_v48 main_v49 main_v50

def fn_part1 {F : FTy → Type} [FloatOps F] (main_arg4 : FVec F S512x2048 .f32) (main_arg5 : FVec F S2048 .f32) (main_arg6 : FVec F S4096x512 .f32) (main_arg7 : FVec F S512x2048 .f32) (main_arg8 : FVec F S2048 .f32) (main_arg9 : FVec F S4096x512 .f32) (main_arg10 : FVec F S512x2048 .f32) (main_arg11 : FVec F S2048 .f32) (main_arg12 : FVec F S4096x512 .f32) (main_arg13 : FVec F S512x2048 .f32) (main_arg14 : FVec F S2048 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x2048 .f32) (main_arg1 : FVec F S8192x2048 .f32) (main_arg2 : FVec F S8192x2048 .f32) (main_arg3 : FVec F S4096x512 .f32) (main_arg4 : FVec F S512x2048 .f32) (main_arg5 : FVec F S2048 .f32) (main_arg6 : FVec F S4096x512 .f32) (main_arg7 : FVec F S512x2048 .f32) (main_arg8 : FVec F S2048 .f32) (main_arg9 : FVec F S4096x512 .f32) (main_arg10 : FVec F S512x2048 .f32) (main_arg11 : FVec F S2048 .f32) (main_arg12 : FVec F S4096x512 .f32) (main_arg13 : FVec F S512x2048 .f32) (main_arg14 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x2048 : Shape := ⟨2, ![8192, 2048]⟩
abbrev S4096x512 : Shape := ⟨2, ![4096, 512]⟩
abbrev S512x2048 : Shape := ⟨2, ![512, 2048]⟩
abbrev S2048 : Shape := ⟨1, ![2048]⟩
abbrev S2048x512 : Shape := ⟨2, ![2048, 512]⟩
abbrev S2048x2048 : Shape := ⟨2, ![2048, 2048]⟩
abbrev S1x2048 : Shape := ⟨2, ![1, 2048]⟩
abbrev S128x2048 : Shape := ⟨2, ![128, 2048]⟩
abbrev S128x512 : Shape := ⟨2, ![128, 512]⟩

abbrev nBuf : Space → Nat
  | .hbm => 37
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S4096x512, .f32⟩
  | .hbm, ⟨4, _⟩ => ⟨S512x2048, .f32⟩
  | .hbm, ⟨5, _⟩ => ⟨S2048, .f32⟩
  | .hbm, ⟨6, _⟩ => ⟨S4096x512, .f32⟩
  | .hbm, ⟨7, _⟩ => ⟨S512x2048, .f32⟩
  | .hbm, ⟨8, _⟩ => ⟨S2048, .f32⟩
  | .hbm, ⟨9, _⟩ => ⟨S4096x512, .f32⟩
  | .hbm, ⟨10, _⟩ => ⟨S512x2048, .f32⟩
  | .hbm, ⟨11, _⟩ => ⟨S2048, .f32⟩
  | .hbm, ⟨12, _⟩ => ⟨S4096x512, .f32⟩
  | .hbm, ⟨13, _⟩ => ⟨S512x2048, .f32⟩
  | .hbm, ⟨14, _⟩ => ⟨S2048, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x2048, .f32⟩
  | .hbm, ⟨24, _⟩ => ⟨S2048x2048, .bf16⟩
  | .hbm, ⟨25, _⟩ => ⟨S2048x2048, .f32⟩
  | .hbm, ⟨26, _⟩ => ⟨S2048x2048, .bf16⟩
  | .hbm, ⟨27, _⟩ => ⟨S512x2048, .bf16⟩
  | .hbm, ⟨28, _⟩ => ⟨S512x2048, .bf16⟩
  | .hbm, ⟨29, _⟩ => ⟨S512x2048, .bf16⟩
  | .hbm, ⟨30, _⟩ => ⟨S512x2048, .bf16⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S8192x2048, .f32⟩
  | .hbm, ⟨36, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S2048x2048, .bf16⟩
  | .local _ .vmem, ⟨7, _⟩ => ⟨S2048x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .bf16⟩
  | .local _ .vmem, ⟨11, _⟩ => ⟨S1x2048, .f32⟩
  | .local _ .vmem, ⟨12, _⟩ => ⟨S512x2048, .bf16⟩
  | .local _ .vmem, ⟨13, _⟩ => ⟨S1x2048, .f32⟩
  | .local _ .vmem, ⟨14, _⟩ => ⟨S512x2048, .bf16⟩
  | .local _ .vmem, ⟨15, _⟩ => ⟨S1x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S4096x512_S2048x512_0_0 : S4096x512.Slices ![0, 0] S2048x512
  slices_S4096x512_S2048x512_2048_0 : S4096x512.Slices ![2048, 0] S2048x512
  concatenates_S2048x512_S2048x512_S2048x512_S2048x512_S2048x2048_d1 : Shape.Concatenates [S2048x512, S2048x512, S2048x512, S2048x512] S2048x2048 1
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  slices_S128x2048_o0_0_S128x512 : S128x2048.Slices ![0, 0] S128x512
  slices_S128x2048_o0_512_S128x512 : S128x2048.Slices ![0, 512] S128x512
  slices_S128x2048_o0_1024_S128x512 : S128x2048.Slices ![0, 1024] S128x512
  slices_S128x2048_o0_1536_S128x512 : S128x2048.Slices ![0, 1536] S128x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  dot_S128x2048_S2048x2048_S128x2048_1_0_0_1_n_n_wf : DotDims.WF S128x2048 S2048x2048 S128x2048 [1] [0] [0] [1] [] []
  dot_S128x512_S512x2048_S128x2048_1_0_0_1_n_n_wf : DotDims.WF S128x512 S512x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S8192x2048.size a
  hwx0_2 : ∀ i : grid0.Coords, EltTy.bits .f32 = 32 ∨ (Rect.block (s := S8192x2048) S128x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .bf16 = 32 ∨ (Rect.block (s := S512x2048) S512x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S512x2048.size a
  hwx0_9 : ∀ i : grid0.Coords, EltTy.bits .bf16 = 32 ∨ (Rect.block (s := S512x2048) S512x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x2048.size a ≤ S512x2048.size a
  hwx0_11 : ∀ i : grid0.Coords, EltTy.bits .bf16 = 32 ∨ (Rect.block (s := S512x2048) S512x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x2048.size a ≤ S8192x2048.size a
  hwx0_13 : ∀ i : grid0.Coords, EltTy.bits .f32 = 32 ∨ (Rect.block (s := S8192x2048) S128x2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x2048.size a ≤ S8192x2048.size a
  hwx0_14 : ∀ i : grid0.Coords, EltTy.bits .f32 = 32 ∨ (Rect.block (s := S8192x2048) S128x2048.size (cc0_transform_14 i) (hinb0_14 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S512x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S512x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S512x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20_0) S128x2048.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v20_1) S128x2048.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where
  halias0_14 : Pipeline.Aliased win0 2 14

variable [Facts]
-- ==== ReferenceIdeal.lean ====
abbrev S8192x2048 : Shape := ⟨2, ![8192, 2048]⟩
abbrev S4096x512 : Shape := ⟨2, ![4096, 512]⟩
abbrev S512x2048 : Shape := ⟨2, ![512, 2048]⟩
abbrev S2048 : Shape := ⟨1, ![2048]⟩
abbrev S8192x4096 : Shape := ⟨2, ![8192, 4096]⟩
abbrev S8192x512 : Shape := ⟨2, ![8192, 512]⟩
abbrev S1x2048 : Shape := ⟨2, ![1, 2048]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S4096x512, .f32⟩
  | .hbm, ⟨4, _⟩ => ⟨S512x2048, .f32⟩
  | .hbm, ⟨5, _⟩ => ⟨S2048, .f32⟩
  | .hbm, ⟨6, _⟩ => ⟨S4096x512, .f32⟩
  | .hbm, ⟨7, _⟩ => ⟨S512x2048, .f32⟩
  | .hbm, ⟨8, _⟩ => ⟨S2048, .f32⟩
  | .hbm, ⟨9, _⟩ => ⟨S4096x512, .f32⟩
  | .hbm, ⟨10, _⟩ => ⟨S512x2048, .f32⟩
  | .hbm, ⟨11, _⟩ => ⟨S2048, .f32⟩
  | .hbm, ⟨12, _⟩ => ⟨S4096x512, .f32⟩
  | .hbm, ⟨13, _⟩ => ⟨S512x2048, .f32⟩
  | .hbm, ⟨14, _⟩ => ⟨S2048, .f32⟩
  | .hbm, ⟨15, _⟩ => ⟨S8192x4096, .f32⟩
  | .hbm, ⟨16, _⟩ => ⟨S8192x512, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x512, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x512, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S8192x512, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x4096_S4096x512_S8192x512_1_0_0_1_n_n_wf : DotDims.WF S8192x4096 S4096x512 S8192x512 [1] [0] [0] [1] [] []
  dot_S8192x512_S512x2048_S8192x2048_1_0_0_1_n_n_wf : DotDims.WF S8192x512 S512x2048 S8192x2048 [1] [0] [0] [1] [] []

variable [Facts₀]

def dot_S8192x4096_S4096x512_S8192x512_1_0_0_1_n_n : DotDims S8192x4096 S4096x512 S8192x512 where
  lhsContracting := [1]
  rhsContracting := [0]
  lhsNonContracting := [0]
  rhsNonContracting := [1]
  lhsBatch := []
  rhsBatch := []
  wf := dot_S8192x4096_S4096x512_S8192x512_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf

class Facts : Prop extends Facts₀ where

variable [Facts]
-- ==== Proof.KernelEntry.lean ====
import proofs.«105823_j19009525252388_2_alg».proof.Proof.Gen.Kernel.Launch
import proofs.«105823_j19009525252388_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region

Before the region the host cuts each gate's first factor into its upper and lower 2048 rows, lays the four upper halves
side by side and the four lower halves side by side, changes float formats, gives each bias a unit leading axis and copies
the old cell state into the second result's buffer. -/

/-- Core c's buffers when the region is entered: the launch contents after those host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetched it or not (a
    window whose block index does not move is fetched once and found again), for any proof data over the region-entry
    arrays whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## Reading the run's post -/

/-- From a run that ends with every array of the region at what the proof data compute and every other buffer as the
    region found it: the two results are the proof data's final arrays, and the fifteen arguments end as launched
    (three are input windows' arrays, twelve are read only by the host operations). -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v20_0) = (dats 0 c).arrAt 13 cfg0.N
      ∧ r.2.mem ((c.tc : Thread nD τ).loc main_v20_1) = (dats 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1 13, (h c).1 14,
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.Kernel.Frame

end
-- ==== Proof.KernelBody.lean ====
import proofs.«105823_j19009525252388_2_alg».proof.Proof.Gen.Kernel.Launch
import proofs.«105823_j19009525252388_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole staging buffer -/

abbrev rX : Rect S128x2048 := Rect.unit (s := S128x2048) ![0, 0] S128x2048.size inb_S128x2048_S128x2048_0_0
abbrev rU : Rect S2048x2048 := Rect.unit (s := S2048x2048) ![0, 0] S2048x2048.size inb_S2048x2048_S2048x2048_0_0
abbrev rV : Rect S512x2048 := Rect.unit (s := S512x2048) ![0, 0] S512x2048.size inb_S512x2048_S512x2048_0_0
abbrev rB : Rect S1x2048 := Rect.unit (s := S1x2048) ![0, 0] S1x2048.size inb_S1x2048_S1x2048_0_0

/-! ## What one grid point leaves in the two output buffers

x0, x1, x2 are the 128-row blocks of x, h and c; x3, x4 the two fused projection matrices; x5 to x12 the four
gates' second factors and bias rows, in the order input, forget, cell, output. -/

/-- The new cell state of the block: forget gate times old cell plus input gate times candidate. -/
def cellOut (x0 : Vec F S128x2048 .f32) (x1 : Vec F S128x2048 .f32) (x2 : Vec F S128x2048 .f32) (x3 : Vec F S2048x2048 .bf16) (x4 : Vec F S2048x2048 .bf16) (x5 : Vec F S512x2048 .bf16) (x6 : Vec F S1x2048 .f32) (x7 : Vec F S512x2048 .bf16) (x8 : Vec F S1x2048 .f32) (x9 : Vec F S512x2048 .bf16) (x10 : Vec F S1x2048 .f32) (x11 : Vec F S512x2048 .bf16) (x12 : Vec F S1x2048 .f32) : Vec F S128x2048 .f32 :=
  View.canon [⟨rX, k0_pay1 (View.ld x2 rX) (k0_pay4 (View.ld x0 rX) (View.ld x1 rX) (View.ld x3 rU) (View.ld x4 rU)) (k0_pay6 (View.ld x0 rX) (View.ld x1 rX) (View.ld x3 rU) (View.ld x4 rU) (View.ld x5 rV) (View.ld x6 rB)) (k0_pay7 (View.ld x0 rX) (View.ld x1 rX) (View.ld x3 rU) (View.ld x4 rU) (View.ld x7 rV) (View.ld x8 rB)) (View.ld x9 rV) (View.ld x10 rB)⟩]

/-- The new hidden state of the block: output gate times tanh of the new cell state. -/
def hiddenOut (x0 : Vec F S128x2048 .f32) (x1 : Vec F S128x2048 .f32) (x2 : Vec F S128x2048 .f32) (x3 : Vec F S2048x2048 .bf16) (x4 : Vec F S2048x2048 .bf16) (x5 : Vec F S512x2048 .bf16) (x6 : Vec F S1x2048 .f32) (x7 : Vec F S512x2048 .bf16) (x8 : Vec F S1x2048 .f32) (x9 : Vec F S512x2048 .bf16) (x10 : Vec F S1x2048 .f32) (x11 : Vec F S512x2048 .bf16) (x12 : Vec F S1x2048 .f32) : Vec F S128x2048 .f32 :=
  View.canon [⟨rX, k0_pay2 (View.ld x2 rX) (k0_pay4 (View.ld x0 rX) (View.ld x1 rX) (View.ld x3 rU) (View.ld x4 rU)) (k0_pay5 (View.ld x0 rX) (View.ld x1 rX) (View.ld x3 rU) (View.ld x4 rU)) (k0_pay6 (View.ld x0 rX) (View.ld x1 rX) (View.ld x3 rU) (View.ld x4 rU) (View.ld x5 rV) (View.ld x6 rB)) (k0_pay7 (View.ld x0 rX) (View.ld x1 rX) (View.ld x3 rU) (View.ld x4 rU) (View.ld x7 rV) (View.ld x8 rB)) (View.ld x9 rV) (View.ld x10 rB) (View.ld x11 rV) (View.ld x12 rB)⟩]

/-- One store of the whole buffer covers it. -/
theorem cover_whole (p0 : Vec F S128x2048 .f32) (y : S128x2048.Idx) :
    ∃ pc ∈ ([⟨rX, p0⟩] : List (View.Piece (Elt F) S128x2048 .f32)), y ∈ pc.1.set :=
  View.cover_of_tiled [⟨rX, p0⟩] S128x2048.size (by rfl) y

/-! ## The body's triple -/

set_option maxHeartbeats 4000000 in
/-- On whole staging buffers, the thirteen inputs' at contents x0 to x12 and the two outputs' at anything, the body runs
    to the end, leaves every input as it was, the hidden-state buffer at hiddenOut and the cell-state buffer at cellOut. -/
theorem sound_kernel (c : Dev nD) (E : Set ℕ) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S2048x2048 .bf16) (harg4 : arg4.IsWhole) (arg5 : Memref sig .tc .vmem S2048x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S512x2048 .bf16) (harg12 : arg12.IsWhole) (arg13 : Memref sig .tc .vmem S1x2048 .f32) (harg13 : arg13.IsWhole) (arg14 : Memref sig .tc .vmem S128x2048 .f32) (harg14 : arg14.IsWhole) (arg15 : Memref sig .tc .vmem S128x2048 .f32) (harg15 : arg15.IsWhole)
    (x0 : Vec F S128x2048 .f32) (x1 : Vec F S128x2048 .f32) (x2 : Vec F S128x2048 .f32) (x3 : Vec F S2048x2048 .bf16) (x4 : Vec F S2048x2048 .bf16) (x5 : Vec F S512x2048 .bf16) (x6 : Vec F S1x2048 .f32) (x7 : Vec F S512x2048 .bf16) (x8 : Vec F S1x2048 .f32) (x9 : Vec F S512x2048 .bf16) (x10 : Vec F S1x2048 .f32) (x11 : Vec F S512x2048 .bf16) (x12 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (hiddenOut x0 x1 x2 x3 x4 x5 x6 x7 x8 x9 x10 x11 x12) ∗ owns (c : Thread nD τ) arg15 fullShare (cellOut x0 x1 x2 x3 x4 x5 x6 x7 x8 x9 x10 x11 x12)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover_whole _)
  iexists _; isplitr
  swap; · iexact H14
  ipureintro
  exact View.read_writes_eq_canon _ _ _ (cover_whole _)

end Cert.Kernel.Frame

end
-- ==== Proof.KernelFrame.lean ====
import proofs.«105823_j19009525252388_2_alg».proof.Proof.KernelEntry
import proofs.«105823_j19009525252388_2_alg».proof.Proof.KernelBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the region -/

/-- On core c: the arrays as the region finds them; after the body at point t every input buffer still at its block, the
    hidden-state buffer at hiddenOut and the cell-state buffer at cellOut of the point's input blocks; the invariant
    is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => hiddenOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => cellOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = hiddenOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after_14 (c : Dev nD) (t : Fin cfg0.N) : (dats m 0 c).after 14 t = cellOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d

/-! ## The body obligation, at a generic point -/

/-- What the body is called with at point t: the invariant, the duty token, every window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' buffers hold their blocks, so the body's triple applies; the invariant and the duty
    token pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault, every array
    of the region ends at what the proof data compute, and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with its post read at the results and the arguments. -/
theorem run_post : θ_run defs (onTc (τ := τ) (main (F := F))) ⟨m, fun _ => 0, ρ⟩ (fun r => ∀ c : Dev nD,
      r.2.mem ((c.tc : Thread nD τ).loc main_v20_0) = (dats m 0 c).arrAt 13 cfg0.N
      ∧ r.2.mem ((c.tc : Thread nD τ).loc main_v20_1) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  post_of m ρ (dats m) (A_eq m) (run_main m ρ)

end Cert.Kernel.Frame

end
-- ==== Proof.KernelIdealEntry.lean ====
import proofs.«105823_j19009525252388_2_alg».proof.Proof.Gen.KernelIdeal.Launch
import proofs.«105823_j19009525252388_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region

Before the region the host cuts each gate's first factor into its upper and lower 2048 rows, lays the four upper halves
side by side and the four lower halves side by side, changes float formats, gives each bias a unit leading axis and copies
the old cell state into the second result's buffer. -/

/-- Core c's buffers when the region is entered: the launch contents after those host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetched it or not (a
    window whose block index does not move is fetched once and found again), for any proof data over the region-entry
    arrays whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## Reading the run's post -/

/-- From a run that ends with every array of the region at what the proof data compute and every other buffer as the
    region found it: the two results are the proof data's final arrays, and the fifteen arguments end as launched
    (three are input windows' arrays, twelve are read only by the host operations). -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v20_0) = (dats 0 c).arrAt 13 cfg0.N
      ∧ r.2.mem ((c.tc : Thread nD τ).loc main_v20_1) = (dats 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1 13, (h c).1 14,
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.KernelIdeal.Frame

end
-- ==== Proof.KernelIdealBody.lean ====
import proofs.«105823_j19009525252388_2_alg».proof.Proof.Gen.KernelIdeal.Launch
import proofs.«105823_j19009525252388_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole staging buffer -/

abbrev rX : Rect S128x2048 := Rect.unit (s := S128x2048) ![0, 0] S128x2048.size inb_S128x2048_S128x2048_0_0
abbrev rU : Rect S2048x2048 := Rect.unit (s := S2048x2048) ![0, 0] S2048x2048.size inb_S2048x2048_S2048x2048_0_0
abbrev rV : Rect S512x2048 := Rect.unit (s := S512x2048) ![0, 0] S512x2048.size inb_S512x2048_S512x2048_0_0
abbrev rB : Rect S1x2048 := Rect.unit (s := S1x2048) ![0, 0] S1x2048.size inb_S1x2048_S1x2048_0_0

/-! ## What one grid point leaves in the two output buffers

x0, x1, x2 are the 128-row blocks of x, h and c; x3, x4 the two fused projection matrices; x5 to x12 the four
gates' second factors and bias rows, in the order input, forget, cell, output. -/

/-- The new cell state of the block: forget gate times old cell plus input gate times candidate. -/
def cellOut (x0 : Vec F S128x2048 .f32) (x1 : Vec F S128x2048 .f32) (x2 : Vec F S128x2048 .f32) (x3 : Vec F S2048x2048 .bf16) (x4 : Vec F S2048x2048 .bf16) (x5 : Vec F S512x2048 .bf16) (x6 : Vec F S1x2048 .f32) (x7 : Vec F S512x2048 .bf16) (x8 : Vec F S1x2048 .f32) (x9 : Vec F S512x2048 .bf16) (x10 : Vec F S1x2048 .f32) (x11 : Vec F S512x2048 .bf16) (x12 : Vec F S1x2048 .f32) : Vec F S128x2048 .f32 :=
  View.canon [⟨rX, k0_pay1 (View.ld x2 rX) (k0_pay4 (View.ld x0 rX) (View.ld x1 rX) (View.ld x3 rU) (View.ld x4 rU)) (k0_pay6 (View.ld x0 rX) (View.ld x1 rX) (View.ld x3 rU) (View.ld x4 rU) (View.ld x5 rV) (View.ld x6 rB)) (k0_pay7 (View.ld x0 rX) (View.ld x1 rX) (View.ld x3 rU) (View.ld x4 rU) (View.ld x7 rV) (View.ld x8 rB)) (View.ld x9 rV) (View.ld x10 rB)⟩]

/-- The new hidden state of the block: output gate times tanh of the new cell state. -/
def hiddenOut (x0 : Vec F S128x2048 .f32) (x1 : Vec F S128x2048 .f32) (x2 : Vec F S128x2048 .f32) (x3 : Vec F S2048x2048 .bf16) (x4 : Vec F S2048x2048 .bf16) (x5 : Vec F S512x2048 .bf16) (x6 : Vec F S1x2048 .f32) (x7 : Vec F S512x2048 .bf16) (x8 : Vec F S1x2048 .f32) (x9 : Vec F S512x2048 .bf16) (x10 : Vec F S1x2048 .f32) (x11 : Vec F S512x2048 .bf16) (x12 : Vec F S1x2048 .f32) : Vec F S128x2048 .f32 :=
  View.canon [⟨rX, k0_pay2 (View.ld x2 rX) (k0_pay4 (View.ld x0 rX) (View.ld x1 rX) (View.ld x3 rU) (View.ld x4 rU)) (k0_pay5 (View.ld x0 rX) (View.ld x1 rX) (View.ld x3 rU) (View.ld x4 rU)) (k0_pay6 (View.ld x0 rX) (View.ld x1 rX) (View.ld x3 rU) (View.ld x4 rU) (View.ld x5 rV) (View.ld x6 rB)) (k0_pay7 (View.ld x0 rX) (View.ld x1 rX) (View.ld x3 rU) (View.ld x4 rU) (View.ld x7 rV) (View.ld x8 rB)) (View.ld x9 rV) (View.ld x10 rB) (View.ld x11 rV) (View.ld x12 rB)⟩]

/-- One store of the whole buffer covers it. -/
theorem cover_whole (p0 : Vec F S128x2048 .f32) (y : S128x2048.Idx) :
    ∃ pc ∈ ([⟨rX, p0⟩] : List (View.Piece (Elt F) S128x2048 .f32)), y ∈ pc.1.set :=
  View.cover_of_tiled [⟨rX, p0⟩] S128x2048.size (by rfl) y

/-! ## The body's triple -/

set_option maxHeartbeats 4000000 in
/-- On whole staging buffers, the thirteen inputs' at contents x0 to x12 and the two outputs' at anything, the body runs
    to the end, leaves every input as it was, the hidden-state buffer at hiddenOut and the cell-state buffer at cellOut. -/
theorem sound_kernel (c : Dev nD) (E : Set ℕ) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S2048x2048 .bf16) (harg4 : arg4.IsWhole) (arg5 : Memref sig .tc .vmem S2048x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S512x2048 .bf16) (harg12 : arg12.IsWhole) (arg13 : Memref sig .tc .vmem S1x2048 .f32) (harg13 : arg13.IsWhole) (arg14 : Memref sig .tc .vmem S128x2048 .f32) (harg14 : arg14.IsWhole) (arg15 : Memref sig .tc .vmem S128x2048 .f32) (harg15 : arg15.IsWhole)
    (x0 : Vec F S128x2048 .f32) (x1 : Vec F S128x2048 .f32) (x2 : Vec F S128x2048 .f32) (x3 : Vec F S2048x2048 .bf16) (x4 : Vec F S2048x2048 .bf16) (x5 : Vec F S512x2048 .bf16) (x6 : Vec F S1x2048 .f32) (x7 : Vec F S512x2048 .bf16) (x8 : Vec F S1x2048 .f32) (x9 : Vec F S512x2048 .bf16) (x10 : Vec F S1x2048 .f32) (x11 : Vec F S512x2048 .bf16) (x12 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (hiddenOut x0 x1 x2 x3 x4 x5 x6 x7 x8 x9 x10 x11 x12) ∗ owns (c : Thread nD τ) arg15 fullShare (cellOut x0 x1 x2 x3 x4 x5 x6 x7 x8 x9 x10 x11 x12)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover_whole _)
  iexists _; isplitr
  swap; · iexact H14
  ipureintro
  exact View.read_writes_eq_canon _ _ _ (cover_whole _)

end Cert.KernelIdeal.Frame

end
-- ==== Proof.KernelIdealFrame.lean ====
import proofs.«105823_j19009525252388_2_alg».proof.Proof.KernelIdealEntry
import proofs.«105823_j19009525252388_2_alg».proof.Proof.KernelIdealBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the region -/

/-- On core c: the arrays as the region finds them; after the body at point t every input buffer still at its block, the
    hidden-state buffer at hiddenOut and the cell-state buffer at cellOut of the point's input blocks; the invariant
    is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => hiddenOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => cellOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = hiddenOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after_14 (c : Dev nD) (t : Fin cfg0.N) : (dats m 0 c).after 14 t = cellOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d

/-! ## The body obligation, at a generic point -/

/-- What the body is called with at point t: the invariant, the duty token, every window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' buffers hold their blocks, so the body's triple applies; the invariant and the duty
    token pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault, every array
    of the region ends at what the proof data compute, and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with its post read at the results and the arguments. -/
theorem run_post : θ_run defs (onTc (τ := τ) (main (F := F))) ⟨m, fun _ => 0, ρ⟩ (fun r => ∀ c : Dev nD,
      r.2.mem ((c.tc : Thread nD τ).loc main_v20_0) = (dats m 0 c).arrAt 13 cfg0.N
      ∧ r.2.mem ((c.tc : Thread nD τ).loc main_v20_1) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  post_of m ρ (dats m) (A_eq m) (run_main m ρ)

end Cert.KernelIdeal.Frame

end
-- ==== Proof.KernelIdealPay.lean ====
import proofs.«105823_j19009525252388_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

/-! # The body's arithmetic read at an index, over the extended reals

Format changes are the identity, a matrix product into a zero accumulator is the plain sum over the contracted axis, a
bias row is read at row 0 whatever the output row, and the four gates' low-rank activations are the four 512-column
panels of one fused 128 x 2048 product. -/

namespace Cert.KernelIdeal.Val

open Cert.KernelIdeal Cert.KernelIdeal.Gen
open Idealize.ShloMosaic Idealize.ShloMosaic.ValueIdx Idealize.SL.Sem

/-- The dimension numbers of the fused first-stage product (128 x 2048 against 2048 x 2048). -/
abbrev DU := dot_S128x2048_S2048x2048_S128x2048_1_0_0_1_n_n
/-- The dimension numbers of a second-stage product (128 x 512 against 512 x 2048). -/
abbrev DV := dot_S128x512_S512x2048_S128x2048_1_0_0_1_n_n

/-! ## The two matrix products at an index -/

theorem lhsU_0 (i : S128x2048.Idx) (q : DU.contr.Idx) : (DU.lhsIdx i q 0).val = (i 0).val := by
  unfold DotDims.lhsIdx
  rw [dif_neg (show ¬(0 : Fin S128x2048.rank) ∈ DU.lhsBatch by decide), dif_pos (show (0 : Fin S128x2048.rank) ∈ DU.lhsNonContracting by decide)]
  rfl
theorem lhsU_1 (i : S128x2048.Idx) (q : DU.contr.Idx) : (DU.lhsIdx i q 1).val = (q ⟨0, by decide⟩).val :=
  DU.lhsIdx_val_of_single rfl i q
theorem rhsU_0 (i : S128x2048.Idx) (q : DU.contr.Idx) : (DU.rhsIdx i q 0).val = (q ⟨0, by decide⟩).val :=
  DU.rhsIdx_val_of_single rfl i q
theorem rhsU_1 (i : S128x2048.Idx) (q : DU.contr.Idx) : (DU.rhsIdx i q 1).val = (i 1).val := by
  unfold DotDims.rhsIdx
  rw [dif_neg (show ¬(1 : Fin S2048x2048.rank) ∈ DU.rhsBatch by decide), dif_pos (show (1 : Fin S2048x2048.rank) ∈ DU.rhsNonContracting by decide)]
  rfl

/-- Row a of the left factor against column j of the right factor. -/
theorem matmulU_apply (l : FVec Ideal S128x2048 .bf16) (r : FVec Ideal S2048x2048 .bf16) (a : Fin 128) (j : Fin 2048) :
    matmul DU none l r (constant (F := Ideal) S128x2048 .f32 0x00000000#32) (ix2 a j) = ∑ k : Fin 2048, l (ix2 a k) * r (ix2 k j) := by
  refine (Ideal.matmul_constant_zero_apply DU none l r (ix2 a j)).trans ?_
  rw [← Equiv.sum_comp (contrEquiv1 DU 2048 rfl rfl).symm]
  refine Finset.sum_congr rfl fun k _ => ?_
  have hk := contrEquiv1_symm_val DU 2048 rfl rfl k
  have el : DU.lhsIdx (ix2 a j) ((contrEquiv1 DU 2048 rfl rfl).symm k) = ix2 a k := funext fun d => Fin.ext (by
    match d with
    | ⟨0, _⟩ => exact lhsU_0 _ _
    | ⟨1, _⟩ => exact (lhsU_1 _ _).trans hk)
  have er : DU.rhsIdx (ix2 a j) ((contrEquiv1 DU 2048 rfl rfl).symm k) = ix2 k j := funext fun d => Fin.ext (by
    match d with
    | ⟨0, _⟩ => exact (rhsU_0 _ _).trans hk
    | ⟨1, _⟩ => exact rhsU_1 _ _)
  rw [el, er]

theorem lhsV_0 (i : S128x2048.Idx) (q : DV.contr.Idx) : (DV.lhsIdx i q 0).val = (i 0).val := by
  unfold DotDims.lhsIdx
  rw [dif_neg (show ¬(0 : Fin S128x512.rank) ∈ DV.lhsBatch by decide), dif_pos (show (0 : Fin S128x512.rank) ∈ DV.lhsNonContracting by decide)]
  rfl
theorem lhsV_1 (i : S128x2048.Idx) (q : DV.contr.Idx) : (DV.lhsIdx i q 1).val = (q ⟨0, by decide⟩).val :=
  DV.lhsIdx_val_of_single rfl i q
theorem rhsV_0 (i : S128x2048.Idx) (q : DV.contr.Idx) : (DV.rhsIdx i q 0).val = (q ⟨0, by decide⟩).val :=
  DV.rhsIdx_val_of_single rfl i q
theorem rhsV_1 (i : S128x2048.Idx) (q : DV.contr.Idx) : (DV.rhsIdx i q 1).val = (i 1).val := by
  unfold DotDims.rhsIdx
  rw [dif_neg (show ¬(1 : Fin S512x2048.rank) ∈ DV.rhsBatch by decide), dif_pos (show (1 : Fin S512x2048.rank) ∈ DV.rhsNonContracting by decide)]
  rfl

theorem matmulV_apply (l : FVec Ideal S128x512 .bf16) (r : FVec Ideal S512x2048 .bf16) (a : Fin 128) (q : Fin 2048) :
    matmul DV none l r (constant (F := Ideal) S128x2048 .f32 0x00000000#32) (ix2 a q) = ∑ k : Fin 512, l (ix2 a k) * r (ix2 k q) := by
  refine (Ideal.matmul_constant_zero_apply DV none l r (ix2 a q)).trans ?_
  rw [← Equiv.sum_comp (contrEquiv1 DV 512 rfl rfl).symm]
  refine Finset.sum_congr rfl fun k _ => ?_
  have hk := contrEquiv1_symm_val DV 512 rfl rfl k
  have el : DV.lhsIdx (ix2 a q) ((contrEquiv1 DV 512 rfl rfl).symm k) = ix2 a k := funext fun d => Fin.ext (by
    match d with
    | ⟨0, _⟩ => exact lhsV_0 _ _
    | ⟨1, _⟩ => exact (lhsV_1 _ _).trans hk)
  have er : DV.rhsIdx (ix2 a q) ((contrEquiv1 DV 512 rfl rfl).symm k) = ix2 k q := funext fun d => Fin.ext (by
    match d with
    | ⟨0, _⟩ => exact (rhsV_0 _ _).trans hk
    | ⟨1, _⟩ => exact rhsV_1 _ _)
  rw [el, er]

/-! ## The fused first stage and its four panels -/

/-- Row a of the block of x against column j of the first fused matrix, plus the same for h and the second. -/
def lr (v0 v2 : Vec Ideal S128x2048 .f32) (v5 v8 : Vec Ideal S2048x2048 .bf16) (a : Fin 128) (j : Fin 2048) : EReal :=
  (∑ k : Fin 2048, v0 (ix2 a k) * v5 (ix2 k j)) + ∑ k : Fin 2048, v2 (ix2 a k) * v8 (ix2 k j)

theorem pay3_apply (v0 v2 : Vec Ideal S128x2048 .f32) (v5 v8 : Vec Ideal S2048x2048 .bf16) (a : Fin 128) (j : Fin 2048) :
    k0_pay3 v0 v2 v5 v8 (ix2 a j) = lr v0 v2 v5 v8 a j := by
  show addf (matmul DU none (truncf .bf16 (v0 : FVec Ideal S128x2048 .f32) bitsLt_bf16_f32) (shapeCast S2048x2048 v5 shapeCasts_S2048x2048_S2048x2048 : FVec Ideal S2048x2048 .bf16) (constant (F := Ideal) S128x2048 .f32 0x00000000#32))
      (matmul DU none (truncf .bf16 (v2 : FVec Ideal S128x2048 .f32) bitsLt_bf16_f32) (shapeCast S2048x2048 v8 shapeCasts_S2048x2048_S2048x2048 : FVec Ideal S2048x2048 .bf16) (constant (F := Ideal) S128x2048 .f32 0x00000000#32)) (ix2 a j) = _
  rw [addf_apply, shapeCast_self, shapeCast_self, matmulU_apply, matmulU_apply]
  rfl

/-- The panel of 512 columns starting at column 0. -/
theorem panel0_apply (y : FVec Ideal S128x2048 .f32) (a : Fin 128) (r : Fin 512) :
    (truncf .bf16 (extractStridedSlice S128x512 ![0, 0] y slices_S128x2048_o0_0_S128x512) bitsLt_bf16_f32 : FVec Ideal S128x512 .bf16) (ix2 a r)
      = y (ix2 a (⟨0 + r.val, by omega⟩ : Fin 2048)) := by
  rw [truncf_apply]
  refine extractStridedSlice_apply _ y _ (ix2 a r) (ix2 a (⟨0 + r.val, by omega⟩ : Fin 2048)) fun d => ?_
  match d with
  | ⟨0, _⟩ => show a.val = 0 + a.val; omega
  | ⟨1, _⟩ => rfl
/-- The panel of 512 columns starting at column 512. -/
theorem panel512_apply (y : FVec Ideal S128x2048 .f32) (a : Fin 128) (r : Fin 512) :
    (truncf .bf16 (extractStridedSlice S128x512 ![0, 512] y slices_S128x2048_o0_512_S128x512) bitsLt_bf16_f32 : FVec Ideal S128x512 .bf16) (ix2 a r)
      = y (ix2 a (⟨512 + r.val, by omega⟩ : Fin 2048)) := by
  rw [truncf_apply]
  refine extractStridedSlice_apply _ y _ (ix2 a r) (ix2 a (⟨512 + r.val, by omega⟩ : Fin 2048)) fun d => ?_
  match d with
  | ⟨0, _⟩ => show a.val = 0 + a.val; omega
  | ⟨1, _⟩ => rfl
/-- The panel of 512 columns starting at column 1024. -/
theorem panel1024_apply (y : FVec Ideal S128x2048 .f32) (a : Fin 128) (r : Fin 512) :
    (truncf .bf16 (extractStridedSlice S128x512 ![0, 1024] y slices_S128x2048_o0_1024_S128x512) bitsLt_bf16_f32 : FVec Ideal S128x512 .bf16) (ix2 a r)
      = y (ix2 a (⟨1024 + r.val, by omega⟩ : Fin 2048)) := by
  rw [truncf_apply]
  refine extractStridedSlice_apply _ y _ (ix2 a r) (ix2 a (⟨1024 + r.val, by omega⟩ : Fin 2048)) fun d => ?_
  match d with
  | ⟨0, _⟩ => show a.val = 0 + a.val; omega
  | ⟨1, _⟩ => rfl
/-- The panel of 512 columns starting at column 1536. -/
theorem panel1536_apply (y : FVec Ideal S128x2048 .f32) (a : Fin 128) (r : Fin 512) :
    (truncf .bf16 (extractStridedSlice S128x512 ![0, 1536] y slices_S128x2048_o0_1536_S128x512) bitsLt_bf16_f32 : FVec Ideal S128x512 .bf16) (ix2 a r)
      = y (ix2 a (⟨1536 + r.val, by omega⟩ : Fin 2048)) := by
  rw [truncf_apply]
  refine extractStridedSlice_apply _ y _ (ix2 a r) (ix2 a (⟨1536 + r.val, by omega⟩ : Fin 2048)) fun d => ?_
  match d with
  | ⟨0, _⟩ => show a.val = 0 + a.val; omega
  | ⟨1, _⟩ => rfl

/-! ## A second stage: activations against the second factor plus the bias row -/

def stage2 (l : FVec Ideal S128x512 .bf16) (v : Vec Ideal S512x2048 .bf16) (b : Vec Ideal S1x2048 .f32) : FVec Ideal S128x2048 .f32 :=
  addf (matmul DV none l (shapeCast S512x2048 v shapeCasts_S512x2048_S512x2048 : FVec Ideal S512x2048 .bf16) (constant (F := Ideal) S128x2048 .f32 0x00000000#32))
    (broadcastTo S128x2048 (shapeCast S1x2048 b shapeCasts_S1x2048_S1x2048 : FVec Ideal S1x2048 .f32) broadcasts_S1x2048_S128x2048)

theorem stage2_apply (l : FVec Ideal S128x512 .bf16) (v : Vec Ideal S512x2048 .bf16) (b : Vec Ideal S1x2048 .f32) (a : Fin 128) (q : Fin 2048) :
    stage2 l v b (ix2 a q) = (∑ r : Fin 512, l (ix2 a r) * v (ix2 r q)) + b (ix2 (0 : Fin 1) q) := by
  unfold stage2
  rw [addf_apply, shapeCast_self, shapeCast_self, matmulV_apply]
  refine congrArg (_ + ·) ?_
  refine broadcastTo_apply b _ (ix2 a q) (ix2 (0 : Fin 1) q) fun d => ?_
  match d with
  | ⟨0, _⟩ => rfl
  | ⟨1, _⟩ => rfl

/-! ## The payloads as compositions of those pieces -/

theorem pay4_eq (v0 v2 : Vec Ideal S128x2048 .f32) (v5 v8 : Vec Ideal S2048x2048 .bf16) :
    k0_pay4 v0 v2 v5 v8 = truncf .bf16 (extractStridedSlice S128x512 ![0, 1024] (k0_pay3 v0 v2 v5 v8) slices_S128x2048_o0_1024_S128x512) bitsLt_bf16_f32 := rfl
theorem pay5_eq (v0 v2 : Vec Ideal S128x2048 .f32) (v5 v8 : Vec Ideal S2048x2048 .bf16) :
    k0_pay5 v0 v2 v5 v8 = truncf .bf16 (extractStridedSlice S128x512 ![0, 1536] (k0_pay3 v0 v2 v5 v8) slices_S128x2048_o0_1536_S128x512) bitsLt_bf16_f32 := rfl
theorem pay6_eq (v0 v2 : Vec Ideal S128x2048 .f32) (v5 v8 : Vec Ideal S2048x2048 .bf16) (v20 : Vec Ideal S512x2048 .bf16) (v23 : Vec Ideal S1x2048 .f32) :
    k0_pay6 v0 v2 v5 v8 v20 v23 = logistic (stage2 (truncf .bf16 (extractStridedSlice S128x512 ![0, 0] (k0_pay3 v0 v2 v5 v8) slices_S128x2048_o0_0_S128x512) bitsLt_bf16_f32) v20 v23) := rfl
theorem pay7_eq (v0 v2 : Vec Ideal S128x2048 .f32) (v5 v8 : Vec Ideal S2048x2048 .bf16) (v28 : Vec Ideal S512x2048 .bf16) (v31 : Vec Ideal S1x2048 .f32) :
    k0_pay7 v0 v2 v5 v8 v28 v31 = logistic (stage2 (truncf .bf16 (extractStridedSlice S128x512 ![0, 512] (k0_pay3 v0 v2 v5 v8) slices_S128x2048_o0_512_S128x512) bitsLt_bf16_f32) v28 v31) := rfl
theorem pay1_eq (v4 : Vec Ideal S128x2048 .f32) (v17 : FVec Ideal S128x512 .bf16) (v27 v35 : FVec Ideal S128x2048 .f32) (v36 : Vec Ideal S512x2048 .bf16) (v39 : Vec Ideal S1x2048 .f32) :
    k0_pay1 v4 v17 v27 v35 v36 v39 = addf (mulf v35 v4) (mulf v27 (tanh (stage2 v17 v36 v39))) := rfl
theorem pay2_eq (v4 : Vec Ideal S128x2048 .f32) (v17 v19 : FVec Ideal S128x512 .bf16) (v27 v35 : FVec Ideal S128x2048 .f32) (v36 : Vec Ideal S512x2048 .bf16) (v39 : Vec Ideal S1x2048 .f32)
    (v48 : Vec Ideal S512x2048 .bf16) (v51 : Vec Ideal S1x2048 .f32) :
    k0_pay2 v4 v17 v19 v27 v35 v36 v39 v48 v51 = mulf (logistic (stage2 v19 v48 v51)) (tanh (k0_pay1 v4 v17 v27 v35 v36 v39)) := rfl

/-- A gate before its nonlinearity, from the fused product's panel starting at column o. -/
def gate (v0 v2 : Vec Ideal S128x2048 .f32) (v5 v8 : Vec Ideal S2048x2048 .bf16) (o : Nat) (ho : o + 512 ≤ 2048)
    (v : Vec Ideal S512x2048 .bf16) (b : Vec Ideal S1x2048 .f32) (a : Fin 128) (q : Fin 2048) : EReal :=
  (∑ r : Fin 512, lr v0 v2 v5 v8 a (⟨o + r.val, by omega⟩ : Fin 2048) * v (ix2 r q)) + b (ix2 (0 : Fin 1) q)

/-- What the body stores as the new cell state, at row a and column q of the block. -/
theorem cell_apply (x0 x1 x2 : Vec Ideal S128x2048 .f32) (x3 x4 : Vec Ideal S2048x2048 .bf16) (x5 : Vec Ideal S512x2048 .bf16) (x6 : Vec Ideal S1x2048 .f32)
    (x7 : Vec Ideal S512x2048 .bf16) (x8 : Vec Ideal S1x2048 .f32) (x9 : Vec Ideal S512x2048 .bf16) (x10 : Vec Ideal S1x2048 .f32) (a : Fin 128) (q : Fin 2048) :
    k0_pay1 x2 (k0_pay4 x0 x1 x3 x4) (k0_pay6 x0 x1 x3 x4 x5 x6) (k0_pay7 x0 x1 x3 x4 x7 x8) x9 x10 (ix2 a q)
      = Ideal.logistic (gate x0 x1 x3 x4 512 (by norm_num) x7 x8 a q) * x2 (ix2 a q)
        + Ideal.logistic (gate x0 x1 x3 x4 0 (by norm_num) x5 x6 a q) * Ideal.tanh (gate x0 x1 x3 x4 1024 (by norm_num) x9 x10 a q) := by
  rw [pay1_eq, pay4_eq, pay6_eq, pay7_eq, addf_apply, mulf_apply, mulf_apply]
  show Ideal.logistic (stage2 _ x7 x8 (ix2 a q)) * x2 (ix2 a q) + Ideal.logistic (stage2 _ x5 x6 (ix2 a q)) * Ideal.tanh (stage2 _ x9 x10 (ix2 a q)) = _
  rw [stage2_apply, stage2_apply, stage2_apply]
  simp only [panel0_apply, panel512_apply, panel1024_apply, pay3_apply]
  rfl

/-- What the body stores as the new hidden state. -/
theorem hidden_apply (x0 x1 x2 : Vec Ideal S128x2048 .f32) (x3 x4 : Vec Ideal S2048x2048 .bf16) (x5 : Vec Ideal S512x2048 .bf16) (x6 : Vec Ideal S1x2048 .f32)
    (x7 : Vec Ideal S512x2048 .bf16) (x8 : Vec Ideal S1x2048 .f32) (x9 : Vec Ideal S512x2048 .bf16) (x10 : Vec Ideal S1x2048 .f32)
    (x11 : Vec Ideal S512x2048 .bf16) (x12 : Vec Ideal S1x2048 .f32) (a : Fin 128) (q : Fin 2048) :
    k0_pay2 x2 (k0_pay4 x0 x1 x3 x4) (k0_pay5 x0 x1 x3 x4) (k0_pay6 x0 x1 x3 x4 x5 x6) (k0_pay7 x0 x1 x3 x4 x7 x8) x9 x10 x11 x12 (ix2 a q)
      = Ideal.logistic (gate x0 x1 x3 x4 1536 (by norm_num) x11 x12 a q)
        * Ideal.tanh (k0_pay1 x2 (k0_pay4 x0 x1 x3 x4) (k0_pay6 x0 x1 x3 x4 x5 x6) (k0_pay7 x0 x1 x3 x4 x7 x8) x9 x10 (ix2 a q)) := by
  rw [pay2_eq, mulf_apply]
  show Ideal.logistic (stage2 (k0_pay5 x0 x1 x3 x4) x11 x12 (ix2 a q)) * _ = _
  rw [stage2_apply, pay5_eq]
  simp only [panel1536_apply, pay3_apply]
  rfl

end Cert.KernelIdeal.Val

end
-- ==== Proof.KernelIdealArrays.lean ====
import proofs.«105823_j19009525252388_2_alg».proof.Proof.KernelIdealEntry
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

/-! # What the region finds in the arrays the host computed

The first fused matrix lays the upper 2048 rows of the four gates' first factors side by side (512 columns each, in the
order input, forget, cell, output); the second does the same with the lower 2048 rows. Column o + r of a fused matrix,
for o the start of a gate's panel, is column r of that gate's half. The second factors arrive unchanged (a change of
float format is the identity over the extended reals) and each bias as a single row. -/

namespace Cert.KernelIdeal.Val

open Cert.KernelIdeal Cert.KernelIdeal.Gen Cert.KernelIdeal.Frame
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The launch contents of the fifteen arguments on core c, as arrays of extended reals. -/
abbrev argB (c : Dev nD) (b : Ref sig .tc) : Buf (Elt Ideal) ((c : Thread nD τ).loc b) := m ((c : Thread nD τ).loc b)

/-- The upper and the lower 2048 rows of a 4096 x 512 factor. -/
def upper (U : S4096x512.Idx → EReal) : S2048x512.Idx → EReal :=
  extractStridedSlice S2048x512 ![0, 0] U slices_S4096x512_S2048x512_0_0
def lower (U : S4096x512.Idx → EReal) : S2048x512.Idx → EReal :=
  extractStridedSlice S2048x512 ![2048, 0] U slices_S4096x512_S2048x512_2048_0

/-- Four 2048 x 512 panels side by side. -/
def fused (u0 u1 u2 u3 : S2048x512.Idx → EReal) : S2048x2048.Idx → EReal :=
  truncf .bf16 (concatenate S2048x2048 1 [⟨S2048x512, u0⟩, ⟨S2048x512, u1⟩, ⟨S2048x512, u2⟩, ⟨S2048x512, u3⟩]
    concatenates_S2048x512_S2048x512_S2048x512_S2048x512_S2048x2048_d1 : FVec Ideal S2048x2048 .f32) bitsLt_bf16_f32

theorem upper_apply (U : S4096x512.Idx → EReal) (k : Fin 2048) (r : Fin 512) :
    upper U (ix2 k r) = U (ix2 (⟨k.val, by omega⟩ : Fin 4096) r) := by
  refine extractStridedSlice_apply _ U _ (ix2 k r) (ix2 (⟨k.val, by omega⟩ : Fin 4096) r) fun d => ?_
  match d with
  | ⟨0, _⟩ => show k.val = 0 + k.val; omega
  | ⟨1, _⟩ => show r.val = 0 + r.val; omega

theorem lower_apply (U : S4096x512.Idx → EReal) (k : Fin 2048) (r : Fin 512) :
    lower U (ix2 k r) = U (ix2 (⟨k.val + 2048, by omega⟩ : Fin 4096) r) := by
  refine extractStridedSlice_apply _ U _ (ix2 k r) (ix2 (⟨k.val + 2048, by omega⟩ : Fin 4096) r) fun d => ?_
  match d with
  | ⟨0, _⟩ => show k.val + 2048 = 2048 + k.val; omega
  | ⟨1, _⟩ => show r.val = 0 + r.val; omega

theorem fused_apply_0 (u0 u1 u2 u3 : S2048x512.Idx → EReal) (k : Fin 2048) (r : Fin 512) :
    fused u0 u1 u2 u3 (ix2 k (⟨0 + r.val, by omega⟩ : Fin 2048)) = u0 (ix2 k r) := by
  show concatenate S2048x2048 1 [⟨S2048x512, u0⟩, ⟨S2048x512, u1⟩, ⟨S2048x512, u2⟩, ⟨S2048x512, u3⟩]
    concatenates_S2048x512_S2048x512_S2048x512_S2048x512_S2048x2048_d1 (ix2 k (⟨0 + r.val, by omega⟩ : Fin 2048)) = _
  refine concatenate_apply_piece (t := S2048x2048) (1 : Fin 2) [⟨S2048x512, u0⟩, ⟨S2048x512, u1⟩, ⟨S2048x512, u2⟩, ⟨S2048x512, u3⟩]
    concatenates_S2048x512_S2048x512_S2048x512_S2048x512_S2048x2048_d1 (ix2 k (⟨0 + r.val, by omega⟩ : Fin 2048)) 0 (by simp) S2048x512 u0 rfl rfl 0 (by rfl) (ix2 k r) (fun b hb => ?_) ?_
  · match b with
    | ⟨0, _⟩ => rfl
    | ⟨1, _⟩ => exact absurd rfl hb
  · rfl
theorem fused_apply_512 (u0 u1 u2 u3 : S2048x512.Idx → EReal) (k : Fin 2048) (r : Fin 512) :
    fused u0 u1 u2 u3 (ix2 k (⟨512 + r.val, by omega⟩ : Fin 2048)) = u1 (ix2 k r) := by
  show concatenate S2048x2048 1 [⟨S2048x512, u0⟩, ⟨S2048x512, u1⟩, ⟨S2048x512, u2⟩, ⟨S2048x512, u3⟩]
    concatenates_S2048x512_S2048x512_S2048x512_S2048x512_S2048x2048_d1 (ix2 k (⟨512 + r.val, by omega⟩ : Fin 2048)) = _
  refine concatenate_apply_piece (t := S2048x2048) (1 : Fin 2) [⟨S2048x512, u0⟩, ⟨S2048x512, u1⟩, ⟨S2048x512, u2⟩, ⟨S2048x512, u3⟩]
    concatenates_S2048x512_S2048x512_S2048x512_S2048x512_S2048x2048_d1 (ix2 k (⟨512 + r.val, by omega⟩ : Fin 2048)) 1 (by simp) S2048x512 u1 rfl rfl 512 (by rfl) (ix2 k r) (fun b hb => ?_) ?_
  · match b with
    | ⟨0, _⟩ => rfl
    | ⟨1, _⟩ => exact absurd rfl hb
  · rfl
theorem fused_apply_1024 (u0 u1 u2 u3 : S2048x512.Idx → EReal) (k : Fin 2048) (r : Fin 512) :
    fused u0 u1 u2 u3 (ix2 k (⟨1024 + r.val, by omega⟩ : Fin 2048)) = u2 (ix2 k r) := by
  show concatenate S2048x2048 1 [⟨S2048x512, u0⟩, ⟨S2048x512, u1⟩, ⟨S2048x512, u2⟩, ⟨S2048x512, u3⟩]
    concatenates_S2048x512_S2048x512_S2048x512_S2048x512_S2048x2048_d1 (ix2 k (⟨1024 + r.val, by omega⟩ : Fin 2048)) = _
  refine concatenate_apply_piece (t := S2048x2048) (1 : Fin 2) [⟨S2048x512, u0⟩, ⟨S2048x512, u1⟩, ⟨S2048x512, u2⟩, ⟨S2048x512, u3⟩]
    concatenates_S2048x512_S2048x512_S2048x512_S2048x512_S2048x2048_d1 (ix2 k (⟨1024 + r.val, by omega⟩ : Fin 2048)) 2 (by simp) S2048x512 u2 rfl rfl 1024 (by rfl) (ix2 k r) (fun b hb => ?_) ?_
  · match b with
    | ⟨0, _⟩ => rfl
    | ⟨1, _⟩ => exact absurd rfl hb
  · rfl
theorem fused_apply_1536 (u0 u1 u2 u3 : S2048x512.Idx → EReal) (k : Fin 2048) (r : Fin 512) :
    fused u0 u1 u2 u3 (ix2 k (⟨1536 + r.val, by omega⟩ : Fin 2048)) = u3 (ix2 k r) := by
  show concatenate S2048x2048 1 [⟨S2048x512, u0⟩, ⟨S2048x512, u1⟩, ⟨S2048x512, u2⟩, ⟨S2048x512, u3⟩]
    concatenates_S2048x512_S2048x512_S2048x512_S2048x512_S2048x2048_d1 (ix2 k (⟨1536 + r.val, by omega⟩ : Fin 2048)) = _
  refine concatenate_apply_piece (t := S2048x2048) (1 : Fin 2) [⟨S2048x512, u0⟩, ⟨S2048x512, u1⟩, ⟨S2048x512, u2⟩, ⟨S2048x512, u3⟩]
    concatenates_S2048x512_S2048x512_S2048x512_S2048x512_S2048x2048_d1 (ix2 k (⟨1536 + r.val, by omega⟩ : Fin 2048)) 3 (by simp) S2048x512 u3 rfl rfl 1536 (by rfl) (ix2 k r) (fun b hb => ?_) ?_
  · match b with
    | ⟨0, _⟩ => rfl
    | ⟨1, _⟩ => exact absurd rfl hb
  · rfl

/-- A bias given a unit leading axis, read at row 0. -/
theorem biasRow_apply (b : S2048.Idx → EReal) (q : Fin 2048) :
    shapeCast S1x2048 b shapeCasts_S2048_S1x2048 (ix2 (0 : Fin 1) q) = b (ix1 q) := by
  refine shapeCast_apply b _ (ix2 (0 : Fin 1) q) (ix1 q) ?_
  rw [Shape.rowMajor_val_one, Shape.rowMajor_val_two]
  show q.val = 0 * 2048 + q.val
  omega

/-! ## The region-entry contents of the ten host-computed windows -/

local macro "host_results" : tactic => `(tactic| (
  simp only [after_cons, after_nil]
  repeat (first
    | rw [unary_result] | rw [reshape_result] | rw [nary4_result]
    | (rw [unary_result_ne]; rotate_left; decide)
    | (rw [reshape_result_ne]; rotate_left; decide)
    | (rw [nary_result_ne]; rotate_left; decide))))

set_option maxHeartbeats 4000000 in
theorem V_v9 (c : Dev nD) : (V m c main_v9 : S2048x2048.Idx → EReal)
    = fused (upper (argB m c main_arg3)) (upper (argB m c main_arg6)) (upper (argB m c main_arg9)) (upper (argB m c main_arg12)) := by
  dsimp only [V, hostOps0]
  host_results
  rfl

set_option maxHeartbeats 4000000 in
theorem V_v11 (c : Dev nD) : (V m c main_v11 : S2048x2048.Idx → EReal)
    = fused (lower (argB m c main_arg3)) (lower (argB m c main_arg6)) (lower (argB m c main_arg9)) (lower (argB m c main_arg12)) := by
  dsimp only [V, hostOps0]
  host_results
  rfl

set_option maxHeartbeats 4000000 in
theorem V_v12 (c : Dev nD) : (V m c main_v12 : S512x2048.Idx → EReal) = argB m c main_arg4 := by
  dsimp only [V, hostOps0]
  host_results
  rfl
set_option maxHeartbeats 4000000 in
theorem V_v13 (c : Dev nD) : (V m c main_v13 : S512x2048.Idx → EReal) = argB m c main_arg7 := by
  dsimp only [V, hostOps0]
  host_results
  rfl
set_option maxHeartbeats 4000000 in
theorem V_v14 (c : Dev nD) : (V m c main_v14 : S512x2048.Idx → EReal) = argB m c main_arg10 := by
  dsimp only [V, hostOps0]
  host_results
  rfl
set_option maxHeartbeats 4000000 in
theorem V_v15 (c : Dev nD) : (V m c main_v15 : S512x2048.Idx → EReal) = argB m c main_arg13 := by
  dsimp only [V, hostOps0]
  host_results
  rfl

set_option maxHeartbeats 4000000 in
theorem V_v16 (c : Dev nD) : (V m c main_v16 : S1x2048.Idx → EReal) = shapeCast S1x2048 (argB m c main_arg5) shapeCasts_S2048_S1x2048 := by
  dsimp only [V, hostOps0]
  host_results
  rfl
set_option maxHeartbeats 4000000 in
theorem V_v17 (c : Dev nD) : (V m c main_v17 : S1x2048.Idx → EReal) = shapeCast S1x2048 (argB m c main_arg8) shapeCasts_S2048_S1x2048 := by
  dsimp only [V, hostOps0]
  host_results
  rfl
set_option maxHeartbeats 4000000 in
theorem V_v18 (c : Dev nD) : (V m c main_v18 : S1x2048.Idx → EReal) = shapeCast S1x2048 (argB m c main_arg11) shapeCasts_S2048_S1x2048 := by
  dsimp only [V, hostOps0]
  host_results
  rfl
set_option maxHeartbeats 4000000 in
theorem V_v19 (c : Dev nD) : (V m c main_v19 : S1x2048.Idx → EReal) = shapeCast S1x2048 (argB m c main_arg14) shapeCasts_S2048_S1x2048 := by
  dsimp only [V, hostOps0]
  host_results
  rfl

end Cert.KernelIdeal.Val

end
-- ==== Proof.Spec.lean ====
import Idealize.ShloMosaic.PureOps.Ideal
import Idealize.ShloMosaic.Lib.ValueIdx

noncomputable section

open scoped BigOperators

/-! # The factorized LSTM cell, index by index, over the extended reals

Every gate is the row [x_p, h_p] (4096 entries) against a 4096 x 512 factor U, then against a 512 x 2048 factor V,
plus a bias. The new cell state is forget * c + input * tanh(candidate); the new hidden state is
output * tanh(new cell). The kernel computes the first product as x_p against the upper 2048 rows of U plus h_p against
the lower 2048 rows: the sum over 4096 split at 2048, which holds in any commutative monoid. -/

namespace Cert.Spec

open Idealize.ShloMosaic Idealize.ShloMosaic.ValueIdx

/-- batch x feature -/
abbrev SB : Shape := ⟨2, ![8192, 2048]⟩
/-- a gate's first factor -/
abbrev SU : Shape := ⟨2, ![4096, 512]⟩
/-- a gate's second factor -/
abbrev SV : Shape := ⟨2, ![512, 2048]⟩
/-- a gate's bias -/
abbrev Sb : Shape := ⟨1, ![2048]⟩

/-- Row p of [x, h] at column k. -/
def cat (x h : SB.Idx → EReal) (p : Fin 8192) (k : Fin 4096) : EReal :=
  if hk : k.val < 2048 then x (ix2 p ⟨k.val, hk⟩) else h (ix2 p ⟨k.val - 2048, by omega⟩)

/-- The low-rank activation: row p of [x, h] against column r of U. -/
def low (x h : SB.Idx → EReal) (U : SU.Idx → EReal) (p : Fin 8192) (r : Fin 512) : EReal :=
  ∑ k : Fin 4096, cat x h p k * U (ix2 k r)

/-- The same with the sum cut at 2048: x against the upper rows of U plus h against the lower rows. -/
def lowSplit (x h : SB.Idx → EReal) (U : SU.Idx → EReal) (p : Fin 8192) (r : Fin 512) : EReal :=
  (∑ k : Fin 2048, x (ix2 p k) * U (ix2 (⟨k.val, by omega⟩ : Fin 4096) r))
    + ∑ k : Fin 2048, h (ix2 p k) * U (ix2 (⟨k.val + 2048, by omega⟩ : Fin 4096) r)

/-- A sum over 4096 terms is the sum of its first 2048 plus the sum of its last 2048. -/
theorem sum_split {M : Type*} [AddCommMonoid M] (f : Fin 4096 → M) :
    ∑ k : Fin 4096, f k = (∑ k : Fin 2048, f ⟨k.val, by omega⟩) + ∑ k : Fin 2048, f ⟨k.val + 2048, by omega⟩ := by
  have h := Fin.sum_univ_add (a := 2048) (b := 2048) (fun k : Fin (2048 + 2048) => f (Fin.cast (by norm_num) k))
  have e : (∑ k : Fin 4096, f k) = ∑ k : Fin (2048 + 2048), f (Fin.cast (by norm_num) k) :=
    (Fintype.sum_equiv (finCongr (by norm_num : 2048 + 2048 = 4096)) _ _ (fun k => rfl)).symm
  rw [e, h]
  refine congrArg₂ (· + ·) ?_ ?_
  · exact Finset.sum_congr rfl fun k _ => congrArg f (Fin.ext (by simp))
  · exact Finset.sum_congr rfl fun k _ => congrArg f (Fin.ext (by simp [Nat.add_comm]))

theorem low_eq_lowSplit (x h : SB.Idx → EReal) (U : SU.Idx → EReal) (p : Fin 8192) (r : Fin 512) :
    low x h U p r = lowSplit x h U p r := by
  unfold low lowSplit
  rw [sum_split]
  refine congrArg₂ (· + ·) ?_ ?_
  · refine Finset.sum_congr rfl fun k _ => ?_
    unfold cat
    rw [dif_pos (show k.val < 2048 from k.isLt)]
  · refine Finset.sum_congr rfl fun k _ => ?_
    unfold cat
    rw [dif_neg (show ¬ (k.val + 2048 < 2048) by omega)]
    refine congrArg (· * _) (congrArg h (congrArg (ix2 p) (Fin.ext ?_)))
    show k.val + 2048 - 2048 = k.val
    omega

/-- A gate before its nonlinearity at row p and column q. -/
def pre (x h : SB.Idx → EReal) (U : SU.Idx → EReal) (V : SV.Idx → EReal) (b : Sb.Idx → EReal) (p : Fin 8192) (q : Fin 2048) : EReal :=
  (∑ r : Fin 512, low x h U p r * V (ix2 r q)) + b (ix1 q)

/-- The new cell state. -/
def cellNew (x h c : SB.Idx → EReal) (Ui : SU.Idx → EReal) (Vi : SV.Idx → EReal) (bi : Sb.Idx → EReal)
    (Uf : SU.Idx → EReal) (Vf : SV.Idx → EReal) (bf : Sb.Idx → EReal) (Uc : SU.Idx → EReal) (Vc : SV.Idx → EReal) (bc : Sb.Idx → EReal)
    (p : Fin 8192) (q : Fin 2048) : EReal :=
  Ideal.logistic (pre x h Uf Vf bf p q) * c (ix2 p q) + Ideal.logistic (pre x h Ui Vi bi p q) * Ideal.tanh (pre x h Uc Vc bc p q)

/-- The new hidden state. -/
def hiddenNew (x h c : SB.Idx → EReal) (Ui : SU.Idx → EReal) (Vi : SV.Idx → EReal) (bi : Sb.Idx → EReal)
    (Uf : SU.Idx → EReal) (Vf : SV.Idx → EReal) (bf : Sb.Idx → EReal) (Uc : SU.Idx → EReal) (Vc : SV.Idx → EReal) (bc : Sb.Idx → EReal)
    (Uo : SU.Idx → EReal) (Vo : SV.Idx → EReal) (bo : Sb.Idx → EReal) (p : Fin 8192) (q : Fin 2048) : EReal :=
  Ideal.logistic (pre x h Uo Vo bo p q) * Ideal.tanh (cellNew x h c Ui Vi bi Uf Vf bf Uc Vc bc p q)

/-- The two results as whole arrays. -/
def cellArr (x h c : SB.Idx → EReal) (Ui : SU.Idx → EReal) (Vi : SV.Idx → EReal) (bi : Sb.Idx → EReal)
    (Uf : SU.Idx → EReal) (Vf : SV.Idx → EReal) (bf : Sb.Idx → EReal) (Uc : SU.Idx → EReal) (Vc : SV.Idx → EReal) (bc : Sb.Idx → EReal) :
    SB.Idx → EReal := fun i => cellNew x h c Ui Vi bi Uf Vf bf Uc Vc bc (i 0) (i 1)
def hiddenArr (x h c : SB.Idx → EReal) (Ui : SU.Idx → EReal) (Vi : SV.Idx → EReal) (bi : Sb.Idx → EReal)
    (Uf : SU.Idx → EReal) (Vf : SV.Idx → EReal) (bf : Sb.Idx → EReal) (Uc : SU.Idx → EReal) (Vc : SV.Idx → EReal) (bc : Sb.Idx → EReal)
    (Uo : SU.Idx → EReal) (Vo : SV.Idx → EReal) (bo : Sb.Idx → EReal) :
    SB.Idx → EReal := fun i => hiddenNew x h c Ui Vi bi Uf Vf bf Uc Vc bc Uo Vo bo (i 0) (i 1)

end Cert.Spec

end
-- ==== Proof.KernelIdealValue.lean ====
import proofs.«105823_j19009525252388_2_alg».proof.Proof.KernelIdealFrame
import proofs.«105823_j19009525252388_2_alg».proof.Proof.KernelIdealPay
import proofs.«105823_j19009525252388_2_alg».proof.Proof.KernelIdealArrays
import proofs.«105823_j19009525252388_2_alg».proof.Proof.Spec

set_option maxRecDepth 16384

noncomputable section

open scoped BigOperators

/-! # The two result arrays after the run are the specification's

Grid point t handles rows 128 t to 128 t + 127. Its blocks of x, h and c are those rows; every other window is a whole
array at every point. Row a of the block is row 128 t + a of the array, so what the point writes back is block t of the
specification's array, and the 64 blocks tile the 8192 rows. -/

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem t_lt (t : Fin cfg0.N) : t.val < 64 := lt_of_lt_of_eq t.isLt N_0

/-- The array row of row a of block t. -/
def row (t : Fin cfg0.N) (a : Fin 128) : Fin 8192 := ⟨t.val * 128 + a.val, by have := t_lt t; omega⟩

/-- The block index of x, h, c and of the two results is (t, 0). -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- Every other window's block index is (0, 0). -/
theorem idx_fixed : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-! ## The input blocks read at an index -/

theorem blk_0 (c : Dev nD) (t : Fin cfg0.N) (a : Fin 128) (k : Fin 2048) :
    iblk m c 0 t (ix2 a k) = (argB m c main_arg0 : S8192x2048.Idx → EReal) (ix2 (row t a) k) := by
  show V m c main_arg0 (((cfg0.win 0).blk t).view.emb (ix2 a k)) = _
  rw [V_main_arg0]
  refine congrArg (fun i => (argB m c main_arg0 : S8192x2048.Idx → EReal) i) (funext fun d => Fin.ext ?_)
  obtain ⟨e0_0, e0_1, e1_0, e1_1, e2_0, e2_1, e13_0, e13_1, e14_0, e14_1⟩ := idx_moving t
  match d with
  | ⟨0, _⟩ => show win0_0.index t (0 : Fin 2) * 128 + 1 * a.val = t.val * 128 + a.val; omega
  | ⟨1, _⟩ => show win0_0.index t (1 : Fin 2) * 2048 + 1 * k.val = k.val; omega
theorem blk_1 (c : Dev nD) (t : Fin cfg0.N) (a : Fin 128) (k : Fin 2048) :
    iblk m c 1 t (ix2 a k) = (argB m c main_arg1 : S8192x2048.Idx → EReal) (ix2 (row t a) k) := by
  show V m c main_arg1 (((cfg0.win 1).blk t).view.emb (ix2 a k)) = _
  rw [V_main_arg1]
  refine congrArg (fun i => (argB m c main_arg1 : S8192x2048.Idx → EReal) i) (funext fun d => Fin.ext ?_)
  obtain ⟨e0_0, e0_1, e1_0, e1_1, e2_0, e2_1, e13_0, e13_1, e14_0, e14_1⟩ := idx_moving t
  match d with
  | ⟨0, _⟩ => show win0_1.index t (0 : Fin 2) * 128 + 1 * a.val = t.val * 128 + a.val; omega
  | ⟨1, _⟩ => show win0_1.index t (1 : Fin 2) * 2048 + 1 * k.val = k.val; omega
theorem blk_2 (c : Dev nD) (t : Fin cfg0.N) (a : Fin 128) (k : Fin 2048) :
    iblk m c 2 t (ix2 a k) = (argB m c main_arg2 : S8192x2048.Idx → EReal) (ix2 (row t a) k) := by
  show V m c main_arg2 (((cfg0.win 2).blk t).view.emb (ix2 a k)) = _
  rw [V_main_arg2]
  refine congrArg (fun i => (argB m c main_arg2 : S8192x2048.Idx → EReal) i) (funext fun d => Fin.ext ?_)
  obtain ⟨e0_0, e0_1, e1_0, e1_1, e2_0, e2_1, e13_0, e13_1, e14_0, e14_1⟩ := idx_moving t
  match d with
  | ⟨0, _⟩ => show win0_2.index t (0 : Fin 2) * 128 + 1 * a.val = t.val * 128 + a.val; omega
  | ⟨1, _⟩ => show win0_2.index t (1 : Fin 2) * 2048 + 1 * k.val = k.val; omega

theorem blk_3 (c : Dev nD) (t : Fin cfg0.N) (y : S2048x2048.Idx) :
    iblk m c 3 t y = (V m c main_v9 : S2048x2048.Idx → EReal) y := by
  show V m c main_v9 (((cfg0.win 3).blk t).view.emb y) = _
  refine congrArg (fun i => (V m c main_v9 : S2048x2048.Idx → EReal) i) (funext fun d => Fin.ext ?_)
  obtain ⟨f3_0, f3_1, f4_0, f4_1, f5_0, f5_1, f6_0, f6_1, f7_0, f7_1, f8_0, f8_1, f9_0, f9_1, f10_0, f10_1, f11_0, f11_1, f12_0, f12_1⟩ := idx_fixed t
  match d with
  | ⟨0, _⟩ => show win0_3.index t (0 : Fin 2) * 2048 + 1 * (y 0).val = (y 0).val; omega
  | ⟨1, _⟩ => show win0_3.index t (1 : Fin 2) * 2048 + 1 * (y 1).val = (y 1).val; omega
theorem blk_4 (c : Dev nD) (t : Fin cfg0.N) (y : S2048x2048.Idx) :
    iblk m c 4 t y = (V m c main_v11 : S2048x2048.Idx → EReal) y := by
  show V m c main_v11 (((cfg0.win 4).blk t).view.emb y) = _
  refine congrArg (fun i => (V m c main_v11 : S2048x2048.Idx → EReal) i) (funext fun d => Fin.ext ?_)
  obtain ⟨f3_0, f3_1, f4_0, f4_1, f5_0, f5_1, f6_0, f6_1, f7_0, f7_1, f8_0, f8_1, f9_0, f9_1, f10_0, f10_1, f11_0, f11_1, f12_0, f12_1⟩ := idx_fixed t
  match d with
  | ⟨0, _⟩ => show win0_4.index t (0 : Fin 2) * 2048 + 1 * (y 0).val = (y 0).val; omega
  | ⟨1, _⟩ => show win0_4.index t (1 : Fin 2) * 2048 + 1 * (y 1).val = (y 1).val; omega
theorem blk_5 (c : Dev nD) (t : Fin cfg0.N) (y : S512x2048.Idx) :
    iblk m c 5 t y = (V m c main_v12 : S512x2048.Idx → EReal) y := by
  show V m c main_v12 (((cfg0.win 5).blk t).view.emb y) = _
  refine congrArg (fun i => (V m c main_v12 : S512x2048.Idx → EReal) i) (funext fun d => Fin.ext ?_)
  obtain ⟨f3_0, f3_1, f4_0, f4_1, f5_0, f5_1, f6_0, f6_1, f7_0, f7_1, f8_0, f8_1, f9_0, f9_1, f10_0, f10_1, f11_0, f11_1, f12_0, f12_1⟩ := idx_fixed t
  match d with
  | ⟨0, _⟩ => show win0_5.index t (0 : Fin 2) * 512 + 1 * (y 0).val = (y 0).val; omega
  | ⟨1, _⟩ => show win0_5.index t (1 : Fin 2) * 2048 + 1 * (y 1).val = (y 1).val; omega
theorem blk_6 (c : Dev nD) (t : Fin cfg0.N) (y : S1x2048.Idx) :
    iblk m c 6 t y = (V m c main_v16 : S1x2048.Idx → EReal) y := by
  show V m c main_v16 (((cfg0.win 6).blk t).view.emb y) = _
  refine congrArg (fun i => (V m c main_v16 : S1x2048.Idx → EReal) i) (funext fun d => Fin.ext ?_)
  obtain ⟨f3_0, f3_1, f4_0, f4_1, f5_0, f5_1, f6_0, f6_1, f7_0, f7_1, f8_0, f8_1, f9_0, f9_1, f10_0, f10_1, f11_0, f11_1, f12_0, f12_1⟩ := idx_fixed t
  match d with
  | ⟨0, _⟩ => show win0_6.index t (0 : Fin 2) * 1 + 1 * (y 0).val = (y 0).val; omega
  | ⟨1, _⟩ => show win0_6.index t (1 : Fin 2) * 2048 + 1 * (y 1).val = (y 1).val; omega
theorem blk_7 (c : Dev nD) (t : Fin cfg0.N) (y : S512x2048.Idx) :
    iblk m c 7 t y = (V m c main_v13 : S512x2048.Idx → EReal) y := by
  show V m c main_v13 (((cfg0.win 7).blk t).view.emb y) = _
  refine congrArg (fun i => (V m c main_v13 : S512x2048.Idx → EReal) i) (funext fun d => Fin.ext ?_)
  obtain ⟨f3_0, f3_1, f4_0, f4_1, f5_0, f5_1, f6_0, f6_1, f7_0, f7_1, f8_0, f8_1, f9_0, f9_1, f10_0, f10_1, f11_0, f11_1, f12_0, f12_1⟩ := idx_fixed t
  match d with
  | ⟨0, _⟩ => show win0_7.index t (0 : Fin 2) * 512 + 1 * (y 0).val = (y 0).val; omega
  | ⟨1, _⟩ => show win0_7.index t (1 : Fin 2) * 2048 + 1 * (y 1).val = (y 1).val; omega
theorem blk_8 (c : Dev nD) (t : Fin cfg0.N) (y : S1x2048.Idx) :
    iblk m c 8 t y = (V m c main_v17 : S1x2048.Idx → EReal) y := by
  show V m c main_v17 (((cfg0.win 8).blk t).view.emb y) = _
  refine congrArg (fun i => (V m c main_v17 : S1x2048.Idx → EReal) i) (funext fun d => Fin.ext ?_)
  obtain ⟨f3_0, f3_1, f4_0, f4_1, f5_0, f5_1, f6_0, f6_1, f7_0, f7_1, f8_0, f8_1, f9_0, f9_1, f10_0, f10_1, f11_0, f11_1, f12_0, f12_1⟩ := idx_fixed t
  match d with
  | ⟨0, _⟩ => show win0_8.index t (0 : Fin 2) * 1 + 1 * (y 0).val = (y 0).val; omega
  | ⟨1, _⟩ => show win0_8.index t (1 : Fin 2) * 2048 + 1 * (y 1).val = (y 1).val; omega
theorem blk_9 (c : Dev nD) (t : Fin cfg0.N) (y : S512x2048.Idx) :
    iblk m c 9 t y = (V m c main_v14 : S512x2048.Idx → EReal) y := by
  show V m c main_v14 (((cfg0.win 9).blk t).view.emb y) = _
  refine congrArg (fun i => (V m c main_v14 : S512x2048.Idx → EReal) i) (funext fun d => Fin.ext ?_)
  obtain ⟨f3_0, f3_1, f4_0, f4_1, f5_0, f5_1, f6_0, f6_1, f7_0, f7_1, f8_0, f8_1, f9_0, f9_1, f10_0, f10_1, f11_0, f11_1, f12_0, f12_1⟩ := idx_fixed t
  match d with
  | ⟨0, _⟩ => show win0_9.index t (0 : Fin 2) * 512 + 1 * (y 0).val = (y 0).val; omega
  | ⟨1, _⟩ => show win0_9.index t (1 : Fin 2) * 2048 + 1 * (y 1).val = (y 1).val; omega
theorem blk_10 (c : Dev nD) (t : Fin cfg0.N) (y : S1x2048.Idx) :
    iblk m c 10 t y = (V m c main_v18 : S1x2048.Idx → EReal) y := by
  show V m c main_v18 (((cfg0.win 10).blk t).view.emb y) = _
  refine congrArg (fun i => (V m c main_v18 : S1x2048.Idx → EReal) i) (funext fun d => Fin.ext ?_)
  obtain ⟨f3_0, f3_1, f4_0, f4_1, f5_0, f5_1, f6_0, f6_1, f7_0, f7_1, f8_0, f8_1, f9_0, f9_1, f10_0, f10_1, f11_0, f11_1, f12_0, f12_1⟩ := idx_fixed t
  match d with
  | ⟨0, _⟩ => show win0_10.index t (0 : Fin 2) * 1 + 1 * (y 0).val = (y 0).val; omega
  | ⟨1, _⟩ => show win0_10.index t (1 : Fin 2) * 2048 + 1 * (y 1).val = (y 1).val; omega
theorem blk_11 (c : Dev nD) (t : Fin cfg0.N) (y : S512x2048.Idx) :
    iblk m c 11 t y = (V m c main_v15 : S512x2048.Idx → EReal) y := by
  show V m c main_v15 (((cfg0.win 11).blk t).view.emb y) = _
  refine congrArg (fun i => (V m c main_v15 : S512x2048.Idx → EReal) i) (funext fun d => Fin.ext ?_)
  obtain ⟨f3_0, f3_1, f4_0, f4_1, f5_0, f5_1, f6_0, f6_1, f7_0, f7_1, f8_0, f8_1, f9_0, f9_1, f10_0, f10_1, f11_0, f11_1, f12_0, f12_1⟩ := idx_fixed t
  match d with
  | ⟨0, _⟩ => show win0_11.index t (0 : Fin 2) * 512 + 1 * (y 0).val = (y 0).val; omega
  | ⟨1, _⟩ => show win0_11.index t (1 : Fin 2) * 2048 + 1 * (y 1).val = (y 1).val; omega
theorem blk_12 (c : Dev nD) (t : Fin cfg0.N) (y : S1x2048.Idx) :
    iblk m c 12 t y = (V m c main_v19 : S1x2048.Idx → EReal) y := by
  show V m c main_v19 (((cfg0.win 12).blk t).view.emb y) = _
  refine congrArg (fun i => (V m c main_v19 : S1x2048.Idx → EReal) i) (funext fun d => Fin.ext ?_)
  obtain ⟨f3_0, f3_1, f4_0, f4_1, f5_0, f5_1, f6_0, f6_1, f7_0, f7_1, f8_0, f8_1, f9_0, f9_1, f10_0, f10_1, f11_0, f11_1, f12_0, f12_1⟩ := idx_fixed t
  match d with
  | ⟨0, _⟩ => show win0_12.index t (0 : Fin 2) * 1 + 1 * (y 0).val = (y 0).val; omega
  | ⟨1, _⟩ => show win0_12.index t (1 : Fin 2) * 2048 + 1 * (y 1).val = (y 1).val; omega

/-! ## The four gates of a block are the specification's at the block's rows -/

theorem lr_eq_0 (c : Dev nD) (t : Fin cfg0.N) (a : Fin 128) (r : Fin 512) :
    lr (iblk m c 0 t) (iblk m c 1 t) (iblk m c 3 t) (iblk m c 4 t) a (⟨0 + r.val, by omega⟩ : Fin 2048)
      = Spec.low (argB m c main_arg0) (argB m c main_arg1) (argB m c main_arg3) (row t a) r := by
  rw [Spec.low_eq_lowSplit]
  unfold lr Spec.lowSplit
  refine congrArg₂ (· + ·) (Finset.sum_congr rfl fun k _ => ?_) (Finset.sum_congr rfl fun k _ => ?_)
  · rw [blk_0, blk_3, V_v9, fused_apply_0, upper_apply]
  · rw [blk_1, blk_4, V_v11, fused_apply_0, lower_apply]

theorem gate_eq_0 (c : Dev nD) (t : Fin cfg0.N) (a : Fin 128) (q : Fin 2048) :
    gate (iblk m c 0 t) (iblk m c 1 t) (iblk m c 3 t) (iblk m c 4 t) 0 (by norm_num) (iblk m c 5 t) (iblk m c 6 t) a q
      = Spec.pre (argB m c main_arg0) (argB m c main_arg1) (argB m c main_arg3) (argB m c main_arg4) (argB m c main_arg5) (row t a) q := by
  unfold gate Spec.pre
  refine congrArg₂ (· + ·) (Finset.sum_congr rfl fun r _ => ?_) ?_
  · rw [lr_eq_0, blk_5, V_v12]
  · rw [blk_6, V_v16, biasRow_apply]

theorem lr_eq_512 (c : Dev nD) (t : Fin cfg0.N) (a : Fin 128) (r : Fin 512) :
    lr (iblk m c 0 t) (iblk m c 1 t) (iblk m c 3 t) (iblk m c 4 t) a (⟨512 + r.val, by omega⟩ : Fin 2048)
      = Spec.low (argB m c main_arg0) (argB m c main_arg1) (argB m c main_arg6) (row t a) r := by
  rw [Spec.low_eq_lowSplit]
  unfold lr Spec.lowSplit
  refine congrArg₂ (· + ·) (Finset.sum_congr rfl fun k _ => ?_) (Finset.sum_congr rfl fun k _ => ?_)
  · rw [blk_0, blk_3, V_v9, fused_apply_512, upper_apply]
  · rw [blk_1, blk_4, V_v11, fused_apply_512, lower_apply]

theorem gate_eq_512 (c : Dev nD) (t : Fin cfg0.N) (a : Fin 128) (q : Fin 2048) :
    gate (iblk m c 0 t) (iblk m c 1 t) (iblk m c 3 t) (iblk m c 4 t) 512 (by norm_num) (iblk m c 7 t) (iblk m c 8 t) a q
      = Spec.pre (argB m c main_arg0) (argB m c main_arg1) (argB m c main_arg6) (argB m c main_arg7) (argB m c main_arg8) (row t a) q := by
  unfold gate Spec.pre
  refine congrArg₂ (· + ·) (Finset.sum_congr rfl fun r _ => ?_) ?_
  · rw [lr_eq_512, blk_7, V_v13]
  · rw [blk_8, V_v17, biasRow_apply]

theorem lr_eq_1024 (c : Dev nD) (t : Fin cfg0.N) (a : Fin 128) (r : Fin 512) :
    lr (iblk m c 0 t) (iblk m c 1 t) (iblk m c 3 t) (iblk m c 4 t) a (⟨1024 + r.val, by omega⟩ : Fin 2048)
      = Spec.low (argB m c main_arg0) (argB m c main_arg1) (argB m c main_arg9) (row t a) r := by
  rw [Spec.low_eq_lowSplit]
  unfold lr Spec.lowSplit
  refine congrArg₂ (· + ·) (Finset.sum_congr rfl fun k _ => ?_) (Finset.sum_congr rfl fun k _ => ?_)
  · rw [blk_0, blk_3, V_v9, fused_apply_1024, upper_apply]
  · rw [blk_1, blk_4, V_v11, fused_apply_1024, lower_apply]

theorem gate_eq_1024 (c : Dev nD) (t : Fin cfg0.N) (a : Fin 128) (q : Fin 2048) :
    gate (iblk m c 0 t) (iblk m c 1 t) (iblk m c 3 t) (iblk m c 4 t) 1024 (by norm_num) (iblk m c 9 t) (iblk m c 10 t) a q
      = Spec.pre (argB m c main_arg0) (argB m c main_arg1) (argB m c main_arg9) (argB m c main_arg10) (argB m c main_arg11) (row t a) q := by
  unfold gate Spec.pre
  refine congrArg₂ (· + ·) (Finset.sum_congr rfl fun r _ => ?_) ?_
  · rw [lr_eq_1024, blk_9, V_v14]
  · rw [blk_10, V_v18, biasRow_apply]

theorem lr_eq_1536 (c : Dev nD) (t : Fin cfg0.N) (a : Fin 128) (r : Fin 512) :
    lr (iblk m c 0 t) (iblk m c 1 t) (iblk m c 3 t) (iblk m c 4 t) a (⟨1536 + r.val, by omega⟩ : Fin 2048)
      = Spec.low (argB m c main_arg0) (argB m c main_arg1) (argB m c main_arg12) (row t a) r := by
  rw [Spec.low_eq_lowSplit]
  unfold lr Spec.lowSplit
  refine congrArg₂ (· + ·) (Finset.sum_congr rfl fun k _ => ?_) (Finset.sum_congr rfl fun k _ => ?_)
  · rw [blk_0, blk_3, V_v9, fused_apply_1536, upper_apply]
  · rw [blk_1, blk_4, V_v11, fused_apply_1536, lower_apply]

theorem gate_eq_1536 (c : Dev nD) (t : Fin cfg0.N) (a : Fin 128) (q : Fin 2048) :
    gate (iblk m c 0 t) (iblk m c 1 t) (iblk m c 3 t) (iblk m c 4 t) 1536 (by norm_num) (iblk m c 11 t) (iblk m c 12 t) a q
      = Spec.pre (argB m c main_arg0) (argB m c main_arg1) (argB m c main_arg12) (argB m c main_arg13) (argB m c main_arg14) (row t a) q := by
  unfold gate Spec.pre
  refine congrArg₂ (· + ·) (Finset.sum_congr rfl fun r _ => ?_) ?_
  · rw [lr_eq_1536, blk_11, V_v15]
  · rw [blk_12, V_v19, biasRow_apply]

/-- The new cell state of block t at row a is the specification's at row 128 t + a. -/
theorem cell_block (c : Dev nD) (t : Fin cfg0.N) (a : Fin 128) (q : Fin 2048) :
    k0_pay1 (iblk m c 2 t) (k0_pay4 (iblk m c 0 t) (iblk m c 1 t) (iblk m c 3 t) (iblk m c 4 t)) (k0_pay6 (iblk m c 0 t) (iblk m c 1 t) (iblk m c 3 t) (iblk m c 4 t) (iblk m c 5 t) (iblk m c 6 t)) (k0_pay7 (iblk m c 0 t) (iblk m c 1 t) (iblk m c 3 t) (iblk m c 4 t) (iblk m c 7 t) (iblk m c 8 t)) (iblk m c 9 t) (iblk m c 10 t) (ix2 a q)
      = Spec.cellNew (argB m c main_arg0) (argB m c main_arg1) (argB m c main_arg2) (argB m c main_arg3) (argB m c main_arg4) (argB m c main_arg5) (argB m c main_arg6) (argB m c main_arg7) (argB m c main_arg8) (argB m c main_arg9) (argB m c main_arg10) (argB m c main_arg11) (row t a) q := by
  refine (cell_apply (iblk m c 0 t) (iblk m c 1 t) (iblk m c 2 t) (iblk m c 3 t) (iblk m c 4 t) (iblk m c 5 t) (iblk m c 6 t) (iblk m c 7 t) (iblk m c 8 t) (iblk m c 9 t) (iblk m c 10 t) a q).trans ?_
  rw [gate_eq_512, gate_eq_0, gate_eq_1024, blk_2]
  rfl

/-- The new hidden state likewise. -/
theorem hidden_block (c : Dev nD) (t : Fin cfg0.N) (a : Fin 128) (q : Fin 2048) :
    k0_pay2 (iblk m c 2 t) (k0_pay4 (iblk m c 0 t) (iblk m c 1 t) (iblk m c 3 t) (iblk m c 4 t)) (k0_pay5 (iblk m c 0 t) (iblk m c 1 t) (iblk m c 3 t) (iblk m c 4 t)) (k0_pay6 (iblk m c 0 t) (iblk m c 1 t) (iblk m c 3 t) (iblk m c 4 t) (iblk m c 5 t) (iblk m c 6 t)) (k0_pay7 (iblk m c 0 t) (iblk m c 1 t) (iblk m c 3 t) (iblk m c 4 t) (iblk m c 7 t) (iblk m c 8 t)) (iblk m c 9 t) (iblk m c 10 t) (iblk m c 11 t) (iblk m c 12 t) (ix2 a q)
      = Spec.hiddenNew (argB m c main_arg0) (argB m c main_arg1) (argB m c main_arg2) (argB m c main_arg3) (argB m c main_arg4) (argB m c main_arg5) (argB m c main_arg6) (argB m c main_arg7) (argB m c main_arg8) (argB m c main_arg9) (argB m c main_arg10) (argB m c main_arg11) (argB m c main_arg12) (argB m c main_arg13) (argB m c main_arg14) (row t a) q := by
  refine (hidden_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a q).trans ?_
  rw [gate_eq_1536, cell_block]
  rfl

/-! ## What a point writes back, the cover, the final arrays -/

theorem flushed14_eq (c : Dev nD) (t : Fin cfg0.N) :
    (dats m 0 c).flushed 14 t = ((cfg0.win 14).blk t).view.read (Elt Ideal) (Spec.cellArr (argB m c main_arg0) (argB m c main_arg1) (argB m c main_arg2) (argB m c main_arg3) (argB m c main_arg4) (argB m c main_arg5) (argB m c main_arg6) (argB m c main_arg7) (argB m c main_arg8) (argB m c main_arg9) (argB m c main_arg10) (argB m c main_arg11)) := by
  show (cfg0.win 14).cut (grid0.coords t) ((dats m 0 c).after 14 t) = _
  rw [after_14]
  unfold cellOut
  rw [View.canon_unit_zero hz]
  simp only [View.ld_unit_zero (S := S128x2048) hz, View.ld_unit_zero (S := S2048x2048) hz, View.ld_unit_zero (S := S512x2048) hz, View.ld_unit_zero (S := S1x2048) hz]
  funext y
  obtain ⟨a, q, rfl⟩ : ∃ (a : Fin 128) (q : Fin 2048), y = ix2 a q := ⟨y 0, y 1, eq_ix2 y⟩
  refine (cell_block m c t a q).trans ?_
  show _ = Spec.cellArr (argB m c main_arg0) (argB m c main_arg1) (argB m c main_arg2) (argB m c main_arg3) (argB m c main_arg4) (argB m c main_arg5) (argB m c main_arg6) (argB m c main_arg7) (argB m c main_arg8) (argB m c main_arg9) (argB m c main_arg10) (argB m c main_arg11) (((cfg0.win 14).blk t).view.emb (ix2 a q))
  unfold Spec.cellArr
  obtain ⟨e0_0, e0_1, e1_0, e1_1, e2_0, e2_1, e13_0, e13_1, e14_0, e14_1⟩ := idx_moving t
  refine congrArg₂ (Spec.cellNew (argB m c main_arg0) (argB m c main_arg1) (argB m c main_arg2) (argB m c main_arg3) (argB m c main_arg4) (argB m c main_arg5) (argB m c main_arg6) (argB m c main_arg7) (argB m c main_arg8) (argB m c main_arg9) (argB m c main_arg10) (argB m c main_arg11)) (Fin.ext ?_) (Fin.ext ?_)
  · show t.val * 128 + a.val = win0_14.index t (0 : Fin 2) * 128 + 1 * a.val; omega
  · show q.val = win0_14.index t (1 : Fin 2) * 2048 + 1 * q.val; omega

theorem mem_blk14 (t : Fin cfg0.N) (i : S8192x2048.Idx) :
    i ∈ ((cfg0.win 14).blk t).view.set ↔ ∀ a : Fin 2, win0_14.index t a * S128x2048.size a ≤ (i a).val ∧ (i a).val < win0_14.index t a * S128x2048.size a + S128x2048.size a := by
  show i ∈ ((View.whole main_v20_1).slice (win0_14.rect t)).set ↔ _
  rw [View.set_slice_whole, Rect.mem_set_unit]
  exact Iff.rfl

/-- Row r of the array is in block r / 128. -/
theorem cover14 (i : S8192x2048.Idx) : ∃ t : Fin cfg0.N, (cfg0.win 14).flush t = true ∧ i ∈ ((cfg0.win 14).blk t).view.set := by
  have hi0 : (i 0).val < 8192 := (i 0).isLt
  have hi1 : (i 1).val < 2048 := (i 1).isLt
  have hN : (i 0).val / 128 < cfg0.N := by rw [show cfg0.N = 64 from N_0]; omega
  refine ⟨⟨(i 0).val / 128, hN⟩, flush0_14 _, ?_⟩
  rw [mem_blk14]
  obtain ⟨e0_0, e0_1, e1_0, e1_1, e2_0, e2_1, e13_0, e13_1, e14_0, e14_1⟩ := idx_moving ⟨(i 0).val / 128, hN⟩
  intro d
  match d with
  | ⟨0, _⟩ =>
    show win0_14.index ⟨(i 0).val / 128, hN⟩ (0 : Fin 2) * 128 ≤ (i 0).val ∧ (i 0).val < win0_14.index ⟨(i 0).val / 128, hN⟩ (0 : Fin 2) * 128 + 128
    rw [e14_0]
    show (i 0).val / 128 * 128 ≤ (i 0).val ∧ (i 0).val < (i 0).val / 128 * 128 + 128
    omega
  | ⟨1, _⟩ =>
    show win0_14.index ⟨(i 0).val / 128, hN⟩ (1 : Fin 2) * 2048 ≤ (i 1).val ∧ (i 1).val < win0_14.index ⟨(i 0).val / 128, hN⟩ (1 : Fin 2) * 2048 + 2048
    rw [e14_1]
    omega

/-- The array after the run. -/
theorem final14 (c : Dev nD) : (dats m 0 c).arrAt 14 cfg0.N = Spec.cellArr (argB m c main_arg0) (argB m c main_arg1) (argB m c main_arg2) (argB m c main_arg3) (argB m c main_arg4) (argB m c main_arg5) (argB m c main_arg6) (argB m c main_arg7) (argB m c main_arg8) (argB m c main_arg9) (argB m c main_arg10) (argB m c main_arg11) :=
  (dats m 0 c).arrAt_eq_of_cover 14 _ (fun t _ => flushed14_eq m c t) (cover14)

theorem flushed13_eq (c : Dev nD) (t : Fin cfg0.N) :
    (dats m 0 c).flushed 13 t = ((cfg0.win 13).blk t).view.read (Elt Ideal) (Spec.hiddenArr (argB m c main_arg0) (argB m c main_arg1) (argB m c main_arg2) (argB m c main_arg3) (argB m c main_arg4) (argB m c main_arg5) (argB m c main_arg6) (argB m c main_arg7) (argB m c main_arg8) (argB m c main_arg9) (argB m c main_arg10) (argB m c main_arg11) (argB m c main_arg12) (argB m c main_arg13) (argB m c main_arg14)) := by
  show (cfg0.win 13).cut (grid0.coords t) ((dats m 0 c).after 13 t) = _
  rw [after_13]
  unfold hiddenOut
  rw [View.canon_unit_zero hz]
  simp only [View.ld_unit_zero (S := S128x2048) hz, View.ld_unit_zero (S := S2048x2048) hz, View.ld_unit_zero (S := S512x2048) hz, View.ld_unit_zero (S := S1x2048) hz]
  funext y
  obtain ⟨a, q, rfl⟩ : ∃ (a : Fin 128) (q : Fin 2048), y = ix2 a q := ⟨y 0, y 1, eq_ix2 y⟩
  refine (hidden_block m c t a q).trans ?_
  show _ = Spec.hiddenArr (argB m c main_arg0) (argB m c main_arg1) (argB m c main_arg2) (argB m c main_arg3) (argB m c main_arg4) (argB m c main_arg5) (argB m c main_arg6) (argB m c main_arg7) (argB m c main_arg8) (argB m c main_arg9) (argB m c main_arg10) (argB m c main_arg11) (argB m c main_arg12) (argB m c main_arg13) (argB m c main_arg14) (((cfg0.win 13).blk t).view.emb (ix2 a q))
  unfold Spec.hiddenArr
  obtain ⟨e0_0, e0_1, e1_0, e1_1, e2_0, e2_1, e13_0, e13_1, e14_0, e14_1⟩ := idx_moving t
  refine congrArg₂ (Spec.hiddenNew (argB m c main_arg0) (argB m c main_arg1) (argB m c main_arg2) (argB m c main_arg3) (argB m c main_arg4) (argB m c main_arg5) (argB m c main_arg6) (argB m c main_arg7) (argB m c main_arg8) (argB m c main_arg9) (argB m c main_arg10) (argB m c main_arg11) (argB m c main_arg12) (argB m c main_arg13) (argB m c main_arg14)) (Fin.ext ?_) (Fin.ext ?_)
  · show t.val * 128 + a.val = win0_13.index t (0 : Fin 2) * 128 + 1 * a.val; omega
  · show q.val = win0_13.index t (1 : Fin 2) * 2048 + 1 * q.val; omega

theorem mem_blk13 (t : Fin cfg0.N) (i : S8192x2048.Idx) :
    i ∈ ((cfg0.win 13).blk t).view.set ↔ ∀ a : Fin 2, win0_13.index t a * S128x2048.size a ≤ (i a).val ∧ (i a).val < win0_13.index t a * S128x2048.size a + S128x2048.size a := by
  show i ∈ ((View.whole main_v20_0).slice (win0_13.rect t)).set ↔ _
  rw [View.set_slice_whole, Rect.mem_set_unit]
  exact Iff.rfl

/-- Row r of the array is in block r / 128. -/
theorem cover13 (i : S8192x2048.Idx) : ∃ t : Fin cfg0.N, (cfg0.win 13).flush t = true ∧ i ∈ ((cfg0.win 13).blk t).view.set := by
  have hi0 : (i 0).val < 8192 := (i 0).isLt
  have hi1 : (i 1).val < 2048 := (i 1).isLt
  have hN : (i 0).val / 128 < cfg0.N := by rw [show cfg0.N = 64 from N_0]; omega
  refine ⟨⟨(i 0).val / 128, hN⟩, flush0_13 _, ?_⟩
  rw [mem_blk13]
  obtain ⟨e0_0, e0_1, e1_0, e1_1, e2_0, e2_1, e13_0, e13_1, e14_0, e14_1⟩ := idx_moving ⟨(i 0).val / 128, hN⟩
  intro d
  match d with
  | ⟨0, _⟩ =>
    show win0_13.index ⟨(i 0).val / 128, hN⟩ (0 : Fin 2) * 128 ≤ (i 0).val ∧ (i 0).val < win0_13.index ⟨(i 0).val / 128, hN⟩ (0 : Fin 2) * 128 + 128
    rw [e13_0]
    show (i 0).val / 128 * 128 ≤ (i 0).val ∧ (i 0).val < (i 0).val / 128 * 128 + 128
    omega
  | ⟨1, _⟩ =>
    show win0_13.index ⟨(i 0).val / 128, hN⟩ (1 : Fin 2) * 2048 ≤ (i 1).val ∧ (i 1).val < win0_13.index ⟨(i 0).val / 128, hN⟩ (1 : Fin 2) * 2048 + 2048
    rw [e13_1]
    omega

/-- The array after the run. -/
theorem final13 (c : Dev nD) : (dats m 0 c).arrAt 13 cfg0.N = Spec.hiddenArr (argB m c main_arg0) (argB m c main_arg1) (argB m c main_arg2) (argB m c main_arg3) (argB m c main_arg4) (argB m c main_arg5) (argB m c main_arg6) (argB m c main_arg7) (argB m c main_arg8) (argB m c main_arg9) (argB m c main_arg10) (argB m c main_arg11) (argB m c main_arg12) (argB m c main_arg13) (argB m c main_arg14) :=
  (dats m 0 c).arrAt_eq_of_cover 13 _ (fun t _ => flushed13_eq m c t) (cover13)

end Cert.KernelIdeal.Val

end
-- ==== Proof.RefIsSpec.lean ====
import proofs.«105823_j19009525252388_2_alg».proof.Proof.Gen.ReferenceIdeal.Read
import proofs.«105823_j19009525252388_2_alg».proof.Proof.Spec

noncomputable section

open scoped BigOperators

/-! # The reference cell is the specification

The reference joins x and h along the feature axis, multiplies the joined row by a gate's first factor and the
result by its second factor, adds the bias along the batch, and applies 1/(1+exp(-z)) or tanh. Read index by
index: the joined row is `Spec.cat`, the two products are `Spec.low` and the sum in `Spec.pre`, and
1/(1+exp(-z)) over the extended reals is the logistic function by its definition. -/

namespace Cert.RefIsSpec

open Idealize.ShloMosaic Idealize.ShloMosaic.ValueIdx
open Cert.ReferenceIdeal Cert.ReferenceIdeal.Gen Cert.ReferenceIdeal.Read

/-- batch x feature arrays, factors and biases at the ideal instance -/
abbrev AB : Type := (⟨S8192x2048, .f32⟩ : BufTy).Contents (Elt Ideal)
abbrev AU : Type := (⟨S4096x512, .f32⟩ : BufTy).Contents (Elt Ideal)
abbrev AV : Type := (⟨S512x2048, .f32⟩ : BufTy).Contents (Elt Ideal)
abbrev Ab : Type := (⟨S2048, .f32⟩ : BufTy).Contents (Elt Ideal)

/-- The word of 1.0 denotes the extended real 1. -/
theorem one_word : Ideal.ofBits .f32 0x3F800000#32 = 1 := IdealRules.sign_bit.ideal_onePat .f32

/-- The joined array [x, h] at row p and column k: x below column 2048, h shifted by 2048 from there on. -/
theorem cat_eq (x0 x1 : AB) (p : Fin 8192) (k : Fin 4096) :
    val_main_v0 (F := Ideal) x0 x1 (ix2 p k) = Cert.Spec.cat x0 x1 p k := by
  unfold val_main_v0 Cert.Spec.cat
  by_cases hk : k.val < 2048
  · rw [dif_pos hk]
    exact concatenate_pair_apply_left (1 : Fin 2) x0 x1 _ (ix2 p k) rfl (ix2 p ⟨k.val, hk⟩)
      (fun b => by match b with | ⟨0, _⟩ => rfl | ⟨1, _⟩ => rfl)
  · rw [dif_neg hk]
    exact concatenate_pair_apply_right (1 : Fin 2) x0 x1 _ (ix2 p k) rfl rfl (ix2 p ⟨k.val - 2048, by omega⟩)
      (fun b hb => by match b, hb with | ⟨0, _⟩, _ => rfl | ⟨1, _⟩, hb => exact absurd rfl hb)
      (by show k.val - 2048 + 2048 = k.val; omega)

/-- A row of [x, h] against a column of a first factor. -/
theorem low_eq (x0 x1 : AB) (U : AU) (p : Fin 8192) (r : Fin 512) :
    val_main_v1 (F := Ideal) x0 x1 U (ix2 p r) = Cert.Spec.low x0 x1 U p r := by
  rw [val_main_v1_apply]
  unfold Cert.Spec.low
  refine Finset.sum_congr rfl fun k _ => ?_
  have el : lidx_main_v1 (ix2 p r) k = ix2 p k :=
    funext fun a => by match a with | ⟨0, _⟩ => rfl | ⟨1, _⟩ => rfl
  have er : ridx_main_v1 (ix2 p r) k = ix2 k r :=
    funext fun a => by match a with | ⟨0, _⟩ => rfl | ⟨1, _⟩ => rfl
  rw [el, er, cat_eq]

/-- A gate before its nonlinearity: the low-rank activation against the second factor, plus the bias of the column. -/
theorem pre_eq (x0 x1 : AB) (U : AU) (V : AV) (b : Ab) (p : Fin 8192) (q : Fin 2048) :
    val_main_v5 (F := Ideal) x0 x1 U V b (ix2 p q) = Cert.Spec.pre x0 x1 U V b p q := by
  rw [val_main_v5_apply, val_main_v2_apply, val_main_v4_apply, val_main_v3_apply]
  unfold Cert.Spec.pre
  rw [Ideal.addf_def]
  refine congrArg₂ (· + ·) (Finset.sum_congr rfl fun k _ => ?_) ?_
  · have el : lidx_main_v2 (ix2 p q) k = ix2 p k :=
      funext fun a => by match a with | ⟨0, _⟩ => rfl | ⟨1, _⟩ => rfl
    have er : ridx_main_v2 (ix2 p q) k = ix2 k q :=
      funext fun a => by match a with | ⟨0, _⟩ => rfl | ⟨1, _⟩ => rfl
    rw [el, er, low_eq]
  · exact congrArg b (funext fun a => by match a with | ⟨0, _⟩ => rfl)

/-- 1/(1+exp(-z)) of a gate is the logistic function of the gate. -/
theorem sig_eq (x0 x1 : AB) (U : AU) (V : AV) (b : Ab) (p : Fin 8192) (q : Fin 2048) :
    val_main_v11 (F := Ideal) x0 x1 U V b (ix2 p q) = Ideal.logistic (Cert.Spec.pre x0 x1 U V b p q) := by
  rw [val_main_v11_apply, val_main_v10_apply, val_main_cst_0_apply, val_main_v9_apply, val_main_v8_apply,
    val_main_cst_apply, val_main_v7_apply, val_main_v6_apply, pre_eq]
  rw [Ideal.ofBits_def, one_word, Ideal.hostDivf_def, Ideal.addf_def, Ideal.hostUnary_exp_def, Ideal.hostNegf_def,
    Ideal.negf_def]
  rfl

/-- The candidate gate: tanh of the gate. -/
theorem tanh_eq (x0 x1 : AB) (U : AU) (V : AV) (b : Ab) (p : Fin 8192) (q : Fin 2048) :
    val_main_v39 (F := Ideal) x0 x1 U V b (ix2 p q) = Ideal.tanh (Cert.Spec.pre x0 x1 U V b p q) := by
  rw [val_main_v39_apply, Ideal.hostUnary_tanh_def]
  exact congrArg Ideal.tanh (pre_eq x0 x1 U V b p q)

/-- The forget and output gates are the same expression as the input gate over their own factors and bias. -/
theorem sig_f_eq (x0 x1 : AB) (U : AU) (V : AV) (b : Ab) (p : Fin 8192) (q : Fin 2048) :
    val_main_v22 (F := Ideal) x0 x1 U V b (ix2 p q) = Ideal.logistic (Cert.Spec.pre x0 x1 U V b p q) :=
  sig_eq x0 x1 U V b p q
theorem sig_o_eq (x0 x1 : AB) (U : AU) (V : AV) (b : Ab) (p : Fin 8192) (q : Fin 2048) :
    val_main_v33 (F := Ideal) x0 x1 U V b (ix2 p q) = Ideal.logistic (Cert.Spec.pre x0 x1 U V b p q) :=
  sig_eq x0 x1 U V b p q

/-- The new cell state at row p and column q. -/
theorem cell_at (x0 x1 x2 : AB) (x3 : AU) (x4 : AV) (x5 : Ab) (x6 : AU) (x7 : AV) (x8 : Ab) (x9 : AU) (x10 : AV) (x11 : Ab)
    (p : Fin 8192) (q : Fin 2048) :
    val_main_v42 (F := Ideal) x0 x1 x2 x3 x4 x5 x6 x7 x8 x9 x10 x11 (ix2 p q)
      = Cert.Spec.cellNew x0 x1 x2 x3 x4 x5 x6 x7 x8 x9 x10 x11 p q := by
  rw [val_main_v42_apply, val_main_v40_apply, val_main_v41_apply, sig_f_eq, sig_eq, tanh_eq]
  rfl

/-- The reference's new cell state is the specification's. -/
theorem ref_cell (x0 x1 x2 : AB) (x3 : AU) (x4 : AV) (x5 : Ab) (x6 : AU) (x7 : AV) (x8 : Ab) (x9 : AU) (x10 : AV) (x11 : Ab) :
    val_main_v42 (F := Ideal) x0 x1 x2 x3 x4 x5 x6 x7 x8 x9 x10 x11
      = Cert.Spec.cellArr x0 x1 x2 x3 x4 x5 x6 x7 x8 x9 x10 x11 := by
  funext i
  obtain ⟨p, q, rfl⟩ : ∃ (p : Fin 8192) (q : Fin 2048), i = ix2 p q := ⟨i 0, i 1, eq_ix2 i⟩
  exact cell_at x0 x1 x2 x3 x4 x5 x6 x7 x8 x9 x10 x11 p q

/-- The reference's new hidden state is the specification's. -/
theorem ref_hidden (x0 x1 x2 : AB) (x3 : AU) (x4 : AV) (x5 : Ab) (x6 : AU) (x7 : AV) (x8 : Ab) (x9 : AU) (x10 : AV) (x11 : Ab)
    (x12 : AU) (x13 : AV) (x14 : Ab) :
    val_main_v44 (F := Ideal) x0 x1 x2 x3 x4 x5 x6 x7 x8 x9 x10 x11 x12 x13 x14
      = Cert.Spec.hiddenArr x0 x1 x2 x3 x4 x5 x6 x7 x8 x9 x10 x11 x12 x13 x14 := by
  funext i
  obtain ⟨p, q, rfl⟩ : ∃ (p : Fin 8192) (q : Fin 2048), i = ix2 p q := ⟨i 0, i 1, eq_ix2 i⟩
  rw [val_main_v44_apply, val_main_v43_apply, sig_o_eq, cell_at, Ideal.hostUnary_tanh_def]
  rfl

end Cert.RefIsSpec

end
-- ==== Proof.lean ====
/-
  A factorized LSTM cell: four gates, each the row [x, h] against a 4096 x 512 factor, then a 512 x 2048 factor, plus a
  bias; new cell = forget * c + input * tanh(candidate); new hidden = output * tanh(new cell).

  The kernel cuts the batch into 64 blocks of 128 rows. Before the region the host lays the upper halves of the four first
  factors side by side, and the lower halves side by side, so that one product of the x block and one of the h block give all
  four low-rank activations as 512-column panels. Over the extended reals a change of float format is the identity, a
  product into a zero accumulator is the plain sum, and the kernel's logistic is the host's 1 / (1 + exp(-z)); the only
  law joining the two sides is that a sum over 4096 terms is the sum of its first 2048 plus the sum of its last 2048,
  which holds in any commutative monoid, so the precondition (finite inputs) is never opened.

  Frames: each kernel program is its host operations followed by one region whose body, at every grid point, reads its
  thirteen input buffers and overwrites its two output buffers; the reference is a straight line of host operations.
-/
import proofs.«105823_j19009525252388_2_alg».proof.Defs
import proofs.«105823_j19009525252388_2_alg».proof.Proof.Gen.Kernel
import proofs.«105823_j19009525252388_2_alg».proof.Proof.Gen.KernelIdeal
import proofs.«105823_j19009525252388_2_alg».proof.Proof.Gen.ReferenceIdeal
import proofs.«105823_j19009525252388_2_alg».proof.Proof.Gen.Pre_finite_inputs
import proofs.«105823_j19009525252388_2_alg».proof.Proof.Gen.ReferenceIdeal.Run
import proofs.«105823_j19009525252388_2_alg».proof.Proof.Gen.ReferenceIdeal.Read
import proofs.«105823_j19009525252388_2_alg».proof.Proof.KernelFrame
import proofs.«105823_j19009525252388_2_alg».proof.Proof.KernelIdealFrame
import proofs.«105823_j19009525252388_2_alg».proof.Proof.KernelIdealValue
import proofs.«105823_j19009525252388_2_alg».proof.Proof.RefIsSpec
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end and leaves its fifteen arguments as launched. -/
theorem frame_k : Cert.frame_Kernel := fun m ρ _ =>
  (θ_run Cert.Kernel.defs _ _).mono (fun _ h c => (h c).2.2) (Cert.Kernel.Frame.run_post (F := Bits) m ρ)

/-- So does the kernel read over the extended reals. -/
theorem frame_ki : Cert.frame_KernelIdeal := fun m ρ _ =>
  (θ_run Cert.KernelIdeal.defs _ _).mono (fun _ h c => (h c).2.2) (Cert.KernelIdeal.Frame.run_post (F := Ideal) m ρ)

/-- The reference is a line of host operations: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's two arrays of the arguments. -/
theorem algebraic : Cert.algebraic_KernelIdeal_ReferenceIdeal := by
  intro m ρ m' ρ' _ hagree
  refine ⟨fun c => Cert.Spec.hiddenArr (Cert.KernelIdeal.Val.argB m c Cert.KernelIdeal.main_arg0) (Cert.KernelIdeal.Val.argB m c Cert.KernelIdeal.main_arg1) (Cert.KernelIdeal.Val.argB m c Cert.KernelIdeal.main_arg2) (Cert.KernelIdeal.Val.argB m c Cert.KernelIdeal.main_arg3) (Cert.KernelIdeal.Val.argB m c Cert.KernelIdeal.main_arg4) (Cert.KernelIdeal.Val.argB m c Cert.KernelIdeal.main_arg5) (Cert.KernelIdeal.Val.argB m c Cert.KernelIdeal.main_arg6) (Cert.KernelIdeal.Val.argB m c Cert.KernelIdeal.main_arg7) (Cert.KernelIdeal.Val.argB m c Cert.KernelIdeal.main_arg8) (Cert.KernelIdeal.Val.argB m c Cert.KernelIdeal.main_arg9) (Cert.KernelIdeal.Val.argB m c Cert.KernelIdeal.main_arg10) (Cert.KernelIdeal.Val.argB m c Cert.KernelIdeal.main_arg11) (Cert.KernelIdeal.Val.argB m c Cert.KernelIdeal.main_arg12) (Cert.KernelIdeal.Val.argB m c Cert.KernelIdeal.main_arg13) (Cert.KernelIdeal.Val.argB m c Cert.KernelIdeal.main_arg14),
    fun c => Cert.Spec.cellArr (Cert.KernelIdeal.Val.argB m c Cert.KernelIdeal.main_arg0) (Cert.KernelIdeal.Val.argB m c Cert.KernelIdeal.main_arg1) (Cert.KernelIdeal.Val.argB m c Cert.KernelIdeal.main_arg2) (Cert.KernelIdeal.Val.argB m c Cert.KernelIdeal.main_arg3) (Cert.KernelIdeal.Val.argB m c Cert.KernelIdeal.main_arg4) (Cert.KernelIdeal.Val.argB m c Cert.KernelIdeal.main_arg5) (Cert.KernelIdeal.Val.argB m c Cert.KernelIdeal.main_arg6) (Cert.KernelIdeal.Val.argB m c Cert.KernelIdeal.main_arg7) (Cert.KernelIdeal.Val.argB m c Cert.KernelIdeal.main_arg8) (Cert.KernelIdeal.Val.argB m c Cert.KernelIdeal.main_arg9) (Cert.KernelIdeal.Val.argB m c Cert.KernelIdeal.main_arg10) (Cert.KernelIdeal.Val.argB m c Cert.KernelIdeal.main_arg11), ?_, ?_⟩
  · exact (θ_run Cert.KernelIdeal.defs _ _).mono
      (fun _ h c => ⟨(h c).1.trans (Cert.KernelIdeal.Val.final13 m c), (h c).2.1.trans (Cert.KernelIdeal.Val.final14 m c), (h c).2.2⟩)
      (Cert.KernelIdeal.Frame.run_post (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13, a14⟩ := hagree c
      rw [a0, a1, a2, a3, a4, a5, a6, a7, a8, a9, a10, a11, a12, a13, a14]
      exact (Cert.ReferenceIdeal.Read.val_main_v44_eq _ _ _ _ _ _ _ _ _ _ _ _ _ _ _).trans (Cert.RefIsSpec.ref_hidden _ _ _ _ _ _ _ _ _ _ _ _ _ _ _)
    · obtain ⟨a0, a1, a2, a3, a4, a5, a6, a7, a8, a9, a10, a11, a12, a13, a14⟩ := hagree c
      rw [a0, a1, a2, a3, a4, a5, a6, a7, a8, a9, a10, a11]
      exact (Cert.ReferenceIdeal.Read.val_main_v42_eq _ _ _ _ _ _ _ _ _ _ _ _).trans (Cert.RefIsSpec.ref_cell _ _ _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
